-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v56)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v56) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg8 : FVec F S128x64 .f32) (main_arg9 : FVec F S64 .f32) (main_arg10 : FVec F S128x64 .f32) (main_v33 : IVec S_ 1) : IVec S_ 1 :=
  let main_v34 : FVec F S128x64 .f32 := Host.absf main_arg8
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S128x64 .f32 := Host.absf main_arg10
  let main_cst_16 : FVec F S_ .f32 := constant S_ .f32 0x7F800000#32
  let main_v45 : FVec F S128x64 .f32 := broadcastInDim S128x64 ![] bcast_S_S128x64 main_cst_16
  let main_v46 : IVec S128x64 1 := cmpf .olt main_v44 main_v45
  let main_c_17 : IVec S_ 1 := constantI S_ 1 1#1
  let main_v47 : IVec S_ 1 := (fun x v => Host.reduce IntOp.andi x v reducesTo_S128x64_S_d0_1 h_S_) main_v46 main_c_17
  let main_v48 : IVec S_ 1 := andi main_v43 main_v47
  main_v48

def fn_part1 {F : FTy → Type} [FloatOps F] (main_arg5 : FVec F S128x128 .f32) (main_arg6 : FVec F S128 .f32) (main_arg7 : FVec F S128x128 .f32) (main_arg8 : FVec F S128x64 .f32) (main_arg9 : FVec F S64 .f32) (main_arg10 : FVec F S128x64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_v33

def fn {F : FTy → Type} [FloatOps F] (main_arg0 : FVec F S50000x128 .f32) (main_arg1 : IVec S2x800000 32) (main_arg2 : FVec F S128x128 .f32) (main_arg3 : FVec F S128 .f32) (main_arg4 : FVec F S128x128 .f32) (main_arg5 : FVec F S128x128 .f32) (main_arg6 : FVec F S128 .f32) (main_arg7 : FVec F S128x128 .f32) (main_arg8 : FVec F S128x64 .f32) (main_arg9 : FVec F S64 .f32) (main_arg10 : FVec F S128x64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S800000x128 : Shape := ⟨2, ![800000, 128]⟩
abbrev S50000x1 : Shape := ⟨2, ![50000, 1]⟩
abbrev S1x128 : Shape := ⟨2, ![1, 128]⟩
abbrev S5000x128 : Shape := ⟨2, ![5000, 128]⟩
abbrev S1x64 : Shape := ⟨2, ![1, 64]⟩
abbrev S50000x64 : Shape := ⟨2, ![50000, 64]⟩
abbrev S5000x64 : Shape := ⟨2, ![5000, 64]⟩

abbrev nBuf : Space → Nat
  | .hbm => 81
  | .vmem => 27
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128x64, .f32⟩
  | .hbm, ⟨9, _⟩ => ⟨S64, .f32⟩
  | .hbm, ⟨10, _⟩ => ⟨S128x64, .f32⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S800000, .i32⟩
  | .hbm, ⟨15, _⟩ => ⟨S_, .f32⟩
  | .hbm, ⟨16, _⟩ => ⟨S800000, .f32⟩
  | .hbm, ⟨17, _⟩ => ⟨S_, .f32⟩
  | .hbm, ⟨18, _⟩ => ⟨S50000, .f32⟩
  | .hbm, ⟨19, _⟩ => ⟨S800000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S800000, .i32⟩
  | .hbm, ⟨29, _⟩ => ⟨S800000, .i1⟩
  | .hbm, ⟨30, _⟩ => ⟨S_, .i32⟩
  | .hbm, ⟨31, _⟩ => ⟨S800000, .i32⟩
  | .hbm, ⟨32, _⟩ => ⟨S800000, .i32⟩
  | .hbm, ⟨33, _⟩ => ⟨S800000, .i32⟩
  | .hbm, ⟨34, _⟩ => ⟨S800000x1, .i32⟩
  | .hbm, ⟨35, _⟩ => ⟨S800000x128, .f32⟩
  | .hbm, ⟨36, _⟩ => ⟨S_, .f32⟩
  | .hbm, ⟨37, _⟩ => ⟨S50000x128, .f32⟩
  | .hbm, ⟨38, _⟩ => ⟨S800000x1, .i32⟩
  | .hbm, ⟨39, _⟩ => ⟨S50000x128, .f32⟩
  | .hbm, ⟨40, _⟩ => ⟨S50000x1, .f32⟩
  | .hbm, ⟨41, _⟩ => ⟨S50000x128, .f32⟩
  | .hbm, ⟨42, _⟩ => ⟨S50000x128, .f32⟩
  | .hbm, ⟨43, _⟩ => ⟨S1x128, .f32⟩
  | .hbm, ⟨44, _⟩ => ⟨S50000x128, .f32⟩
  | .hbm, ⟨45, _⟩ => ⟨S_, .i32⟩
  | .hbm, ⟨46, _⟩ => ⟨S800000, .i32⟩
  | .hbm, ⟨47, _⟩ => ⟨S800000, .i1⟩
  | .hbm, ⟨48, _⟩ => ⟨S_, .i32⟩
  | .hbm, ⟨49, _⟩ => ⟨S800000, .i32⟩
  | .hbm, ⟨50, _⟩ => ⟨S800000, .i32⟩
  | .hbm, ⟨51, _⟩ => ⟨S800000, .i32⟩
  | .hbm, ⟨52, _⟩ => ⟨S800000x1, .i32⟩
  | .hbm, ⟨53, _⟩ => ⟨S800000x128, .f32⟩
  | .hbm, ⟨54, _⟩ => ⟨S_, .f32⟩
  | .hbm, ⟨55, _⟩ => ⟨S50000x128, .f32⟩
  | .hbm, ⟨56, _⟩ => ⟨S800000x1, .i32⟩
  | .hbm, ⟨57, _⟩ => ⟨S50000x128, .f32⟩
  | .hbm, ⟨58, _⟩ => ⟨S50000x1, .f32⟩
  | .hbm, ⟨59, _⟩ => ⟨S50000x128, .f32⟩
  | .hbm, ⟨60, _⟩ => ⟨S50000x128, .f32⟩
  | .hbm, ⟨61, _⟩ => ⟨S1x128, .f32⟩
  | .hbm, ⟨62, _⟩ => ⟨S50000x128, .f32⟩
  | .hbm, ⟨63, _⟩ => ⟨S_, .i32⟩
  | .hbm, ⟨64, _⟩ => ⟨S800000, .i32⟩
  | .hbm, ⟨65, _⟩ => ⟨S800000, .i1⟩
  | .hbm, ⟨66, _⟩ => ⟨S_, .i32⟩
  | .hbm, ⟨67, _⟩ => ⟨S800000, .i32⟩
  | .hbm, ⟨68, _⟩ => ⟨S800000, .i32⟩
  | .hbm, ⟨69, _⟩ => ⟨S800000, .i32⟩
  | .hbm, ⟨70, _⟩ => ⟨S800000x1, .i32⟩
  | .hbm, ⟨71, _⟩ => ⟨S800000x128, .f32⟩
  | .hbm, ⟨72, _⟩ => ⟨S_, .f32⟩
  | .hbm, ⟨73, _⟩ => ⟨S50000x128, .f32⟩
  | .hbm, ⟨74, _⟩ => ⟨S800000x1, .i32⟩
  | .hbm, ⟨75, _⟩ => ⟨S50000x128, .f32⟩
  | .hbm, ⟨76, _⟩ => ⟨S50000x1, .f32⟩
  | .hbm, ⟨77, _⟩ => ⟨S50000x128, .f32⟩
  | .hbm, ⟨78, _⟩ => ⟨S50000x128, .f32⟩
  | .hbm, ⟨79, _⟩ => ⟨S1x64, .f32⟩
  | .hbm, ⟨80, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S1x128, .f32⟩
  | .local _ .vmem, ⟨15, _⟩ => ⟨S128x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x64, .f32⟩
  | .local _ .vmem, ⟨23, _⟩ => ⟨S1x64, .f32⟩
  | .local _ .vmem, ⟨24, _⟩ => ⟨S128x64, .f32⟩
  | .local _ .vmem, ⟨25, _⟩ => ⟨S5000x64, .f32⟩
  | .local _ .vmem, ⟨26, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_cst_2 : Ref sig .tc := ⟨.hbm, 24, rfl⟩
abbrev main_v10 : Ref sig .tc := ⟨.hbm, 25, rfl⟩
abbrev main_v11 : Ref sig .tc := ⟨.hbm, 26, rfl⟩
abbrev main_c : Ref sig .tc := ⟨.hbm, 27, rfl⟩
abbrev main_v12 : Ref sig .tc := ⟨.hbm, 28, rfl⟩
abbrev main_v13 : Ref sig .tc := ⟨.hbm, 29, rfl⟩
abbrev main_c_3 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_4 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_c_5 : Ref sig .tc := ⟨.hbm, 45, rfl⟩
abbrev main_v27 : Ref sig .tc := ⟨.hbm, 46, rfl⟩
abbrev main_v28 : Ref sig .tc := ⟨.hbm, 47, rfl⟩
abbrev main_c_6 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_7 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_c_8 : Ref sig .tc := ⟨.hbm, 63, rfl⟩
abbrev main_v42 : Ref sig .tc := ⟨.hbm, 64, rfl⟩
abbrev main_v43 : Ref sig .tc := ⟨.hbm, 65, rfl⟩
abbrev main_c_9 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_cst_10 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S64_S1x64 : S64.ShapeCasts S1x64
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x64.size a ≤ S128x64.size a
  hwx2_2 : ∀ i : grid2.Coords, EltTy.bits .f32 = 32 ∨ (Rect.block (s := S128x64) S128x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x64.size a ≤ S128x64.size a
  hwx2_4 : ∀ i : grid2.Coords, EltTy.bits .f32 = 32 ∨ (Rect.block (s := S128x64) S128x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x64.size a ≤ S50000x64.size a
  hwx2_5 : ∀ i : grid2.Coords, EltTy.bits .f32 = 32 ∨ (Rect.block (s := S50000x64) S5000x64.size (cc2_transform_5 i) (hinb2_5 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_v24) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v25) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v39) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v40) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v41) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v54) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v41) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S128x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v55) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg10) S128x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v56) S5000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S1x128 : Shape := ⟨2, ![1, 128]⟩
abbrev S50000x64 : Shape := ⟨2, ![50000, 64]⟩
abbrev S1x64 : Shape := ⟨2, ![1, 64]⟩

abbrev nBuf : Space → Nat
  | .hbm => 114
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128x64, .f32⟩
  | .hbm, ⟨9, _⟩ => ⟨S64, .f32⟩
  | .hbm, ⟨10, _⟩ => ⟨S128x64, .f32⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S800000, .i32⟩
  | .hbm, ⟨15, _⟩ => ⟨S_, .i32⟩
  | .hbm, ⟨16, _⟩ => ⟨S800000, .i32⟩
  | .hbm, ⟨17, _⟩ => ⟨S800000, .i1⟩
  | .hbm, ⟨18, _⟩ => ⟨S_, .i32⟩
  | .hbm, ⟨19, _⟩ => ⟨S800000, .i32⟩
  | .hbm, ⟨20, _⟩ => ⟨S800000, .i32⟩
  | .hbm, ⟨21, _⟩ => ⟨S800000, .i32⟩
  | .hbm, ⟨22, _⟩ => ⟨S800000x1, .i32⟩
  | .hbm, ⟨23, _⟩ => ⟨S800000x128, .f32⟩
  | .hbm, ⟨24, _⟩ => ⟨S_, .f32⟩
  | .hbm, ⟨25, _⟩ => ⟨S50000x128, .f32⟩
  | .hbm, ⟨26, _⟩ => ⟨S800000x1, .i32⟩
  | .hbm, ⟨27, _⟩ => ⟨S50000x128, .f32⟩
  | .hbm, ⟨28, _⟩ => ⟨S_, .f32⟩
  | .hbm, ⟨29, _⟩ => ⟨S800000, .f32⟩
  | .hbm, ⟨30, _⟩ => ⟨S_, .f32⟩
  | .hbm, ⟨31, _⟩ => ⟨S50000, .f32⟩
  | .hbm, ⟨32, _⟩ => ⟨S800000x1, .i32⟩
  | .hbm, ⟨33, _⟩ => ⟨S50000, .f32⟩
  | .hbm, ⟨34, _⟩ => ⟨S_, .f32⟩
  | .hbm, ⟨35, _⟩ => ⟨S50000, .f32⟩
  | .hbm, ⟨36, _⟩ => ⟨S50000, .f32⟩
  | .hbm, ⟨37, _⟩ => ⟨S50000x1, .f32⟩
  | .hbm, ⟨38, _⟩ => ⟨S50000x128, .f32⟩
  | .hbm, ⟨39, _⟩ => ⟨S50000x128, .f32⟩
  | .hbm, ⟨40, _⟩ => ⟨S50000x128, .f32⟩
  | .hbm, ⟨41, _⟩ => ⟨S1x128, .f32⟩
  | .hbm, ⟨42, _⟩ => ⟨S50000x128, .f32⟩
  | .hbm, ⟨43, _⟩ => ⟨S50000x128, .f32⟩
  | .hbm, ⟨44, _⟩ => ⟨S50000x128, .f32⟩
  | .hbm, ⟨45, _⟩ => ⟨S50000x128, .f32⟩
  | .hbm, ⟨46, _⟩ => ⟨S_, .f32⟩
  | .hbm, ⟨47, _⟩ => ⟨S50000x128, .f32⟩
  | .hbm, ⟨48, _⟩ => ⟨S50000x128, .f32⟩
  | .hbm, ⟨49, _⟩ => ⟨S_, .i32⟩
  | .hbm, ⟨50, _⟩ => ⟨S800000, .i32⟩
  | .hbm, ⟨51, _⟩ => ⟨S800000, .i1⟩
  | .hbm, ⟨52, _⟩ => ⟨S_, .i32⟩
  | .hbm, ⟨53, _⟩ => ⟨S800000, .i32⟩
  | .hbm, ⟨54, _⟩ => ⟨S800000, .i32⟩
  | .hbm, ⟨55, _⟩ => ⟨S800000, .i32⟩
  | .hbm, ⟨56, _⟩ => ⟨S800000x1, .i32⟩
  | .hbm, ⟨57, _⟩ => ⟨S800000x128, .f32⟩
  | .hbm, ⟨58, _⟩ => ⟨S_, .f32⟩
  | .hbm, ⟨59, _⟩ => ⟨S50000x128, .f32⟩
  | .hbm, ⟨60, _⟩ => ⟨S800000x1, .i32⟩
  | .hbm, ⟨61, _⟩ => ⟨S50000x128, .f32⟩
  | .hbm, ⟨62, _⟩ => ⟨S_, .f32⟩
  | .hbm, ⟨63, _⟩ => ⟨S800000, .f32⟩
  | .hbm, ⟨64, _⟩ => ⟨S_, .f32⟩
  | .hbm, ⟨65, _⟩ => ⟨S50000, .f32⟩
  | .hbm, ⟨66, _⟩ => ⟨S800000x1, .i32⟩
  | .hbm, ⟨67, _⟩ => ⟨S50000, .f32⟩
  | .hbm, ⟨68, _⟩ => ⟨S_, .f32⟩
  | .hbm, ⟨69, _⟩ => ⟨S50000, .f32⟩
  | .hbm, ⟨70, _⟩ => ⟨S50000, .f32⟩
  | .hbm, ⟨71, _⟩ => ⟨S50000x1, .f32⟩
  | .hbm, ⟨72, _⟩ => ⟨S50000x128, .f32⟩
  | .hbm, ⟨73, _⟩ => ⟨S50000x128, .f32⟩
  | .hbm, ⟨74, _⟩ => ⟨S50000x128, .f32⟩
  | .hbm, ⟨75, _⟩ => ⟨S1x128, .f32⟩
  | .hbm, ⟨76, _⟩ => ⟨S50000x128, .f32⟩
  | .hbm, ⟨77, _⟩ => ⟨S50000x128, .f32⟩
  | .hbm, ⟨78, _⟩ => ⟨S50000x128, .f32⟩
  | .hbm, ⟨79, _⟩ => ⟨S50000x128, .f32⟩
  | .hbm, ⟨80, _⟩ => ⟨S_, .f32⟩
  | .hbm, ⟨81, _⟩ => ⟨S50000x128, .f32⟩
  | .hbm, ⟨82, _⟩ => ⟨S50000x128, .f32⟩
  | .hbm, ⟨83, _⟩ => ⟨S_, .i32⟩
  | .hbm, ⟨84, _⟩ => ⟨S800000, .i32⟩
  | .hbm, ⟨85, _⟩ => ⟨S800000, .i1⟩
  | .hbm, ⟨86, _⟩ => ⟨S_, .i32⟩
  | .hbm, ⟨87, _⟩ => ⟨S800000, .i32⟩
  | .hbm, ⟨88, _⟩ => ⟨S800000, .i32⟩
  | .hbm, ⟨89, _⟩ => ⟨S800000, .i32⟩
  | .hbm, ⟨90, _⟩ => ⟨S800000x1, .i32⟩
  | .hbm, ⟨91, _⟩ => ⟨S800000x128, .f32⟩
  | .hbm, ⟨92, _⟩ => ⟨S_, .f32⟩
  | .hbm, ⟨93, _⟩ => ⟨S50000x128, .f32⟩
  | .hbm, ⟨94, _⟩ => ⟨S800000x1, .i32⟩
  | .hbm, ⟨95, _⟩ => ⟨S50000x128, .f32⟩
  | .hbm, ⟨96, _⟩ => ⟨S_, .f32⟩
  | .hbm, ⟨97, _⟩ => ⟨S800000, .f32⟩
  | .hbm, ⟨98, _⟩ => ⟨S_, .f32⟩
  | .hbm, ⟨99, _⟩ => ⟨S50000, .f32⟩
  | .hbm, ⟨100, _⟩ => ⟨S800000x1, .i32⟩
  | .hbm, ⟨101, _⟩ => ⟨S50000, .f32⟩
  | .hbm, ⟨102, _⟩ => ⟨S_, .f32⟩
  | .hbm, ⟨103, _⟩ => ⟨S50000, .f32⟩
  | .hbm, ⟨104, _⟩ => ⟨S50000, .f32⟩
  | .hbm, ⟨105, _⟩ => ⟨S50000x1, .f32⟩
  | .hbm, ⟨106, _⟩ => ⟨S50000x128, .f32⟩
  | .hbm, ⟨107, _⟩ => ⟨S50000x128, .f32⟩
  | .hbm, ⟨108, _⟩ => ⟨S50000x64, .f32⟩
  | .hbm, ⟨109, _⟩ => ⟨S1x64, .f32⟩
  | .hbm, ⟨110, _⟩ => ⟨S50000x64, .f32⟩
  | .hbm, ⟨111, _⟩ => ⟨S50000x64, .f32⟩
  | .hbm, ⟨112, _⟩ => ⟨S50000x64, .f32⟩
  | .hbm, ⟨113, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_call0_cst : Ref sig .tc := ⟨.hbm, 46, rfl⟩
abbrev main_call0_v0 : Ref sig .tc := ⟨.hbm, 47, rfl⟩
abbrev main_v29 : Ref sig .tc := ⟨.hbm, 48, rfl⟩
abbrev main_c_4 : Ref sig .tc := ⟨.hbm, 49, rfl⟩
abbrev main_v30 : Ref sig .tc := ⟨.hbm, 50, rfl⟩
abbrev main_v31 : Ref sig .tc := ⟨.hbm, 51, rfl⟩
abbrev main_c_5 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_6 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_7 : Ref sig .tc := ⟨.hbm, 62, rfl⟩
abbrev main_v40 : Ref sig .tc := ⟨.hbm, 63, rfl⟩
abbrev main_cst_8 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_cst_9 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_call1_cst : Ref sig .tc := ⟨.hbm, 80, rfl⟩
abbrev main_call1_v0 : Ref sig .tc := ⟨.hbm, 81, rfl⟩
abbrev main_v55 : Ref sig .tc := ⟨.hbm, 82, rfl⟩
abbrev main_c_10 : Ref sig .tc := ⟨.hbm, 83, rfl⟩
abbrev main_v56 : Ref sig .tc := ⟨.hbm, 84, rfl⟩
abbrev main_v57 : Ref sig .tc := ⟨.hbm, 85, rfl⟩
abbrev main_c_11 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_cst_12 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_cst_13 : Ref sig .tc := ⟨.hbm, 96, rfl⟩
abbrev main_v66 : Ref sig .tc := ⟨.hbm, 97, rfl⟩
abbrev main_cst_14 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_cst_15 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x128_S50000x128_1_0_0_1_n_n_wf : DotDims.WF S50000x128 S128x128 S50000x128 [1] [0] [0] [1] [] []
  dot_S50000x128_S128x64_S50000x64_1_0_0_1_n_n_wf : DotDims.WF S50000x128 S128x64 S50000x64 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.KernelRun.lean ====
/-
  The idealized kernel's run with its result array named.

  @main is six segments: three stretches of host operations, each followed by one pipelined call. The buffer contents
  at the segment boundaries are a fold from the launch memory (`Gen.W0` … `Gen.W6`): a host stretch applies its
  operations, a call leaves its output array at what its grid points wrote back and every other buffer as it found it.
  The frame's run ends with every unscoped buffer at the last boundary's contents `Gen.W6`; read at the result buffer
  this names the result, and read at an argument it is the argument as launched.
-/
import proofs.«102059_j10797547782307_1_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last boundary's
    contents and the arguments as launched. -/
theorem run : θ_run defs (onTc (τ := τ) (main (F := F))) ⟨m, fun _ => 0, ρ⟩ (fun r => ∀ c : Dev nD,
      r.2.mem ((c.tc : Thread nD τ).loc main_v56) = W6 m ρ c (Proc.devRef .tc main_v56)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v56 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c)⟩)

end Cert.KernelIdeal.Named

end
-- ==== Proof.LibMatmulNN.lean ====
/-
  A kernel's matrix product `A · B` of an `[M, K]` by a `[K, N]` operand — the LAST axis of the left operand contracted
  with the FIRST axis of the right one, no batch axes (jnp `x @ W`, `jnp.dot(x, W)`; dimension numbers `[1] x [0]`,
  free axes `[0]` and `[1]`) — into a zero accumulator, over the extended reals: read at `(i, j)` it is the sum over
  `k : Fin K` of `A(i, k) · B(k, j)`. Stated for ANY record of dimension numbers with those six lists, each hypothesis
  closed by `rfl` at a printed record.
-/
import Idealize.ShloMosaic.Lib.ValueIdx
import Idealize.ShloMosaic.PureOps.Ideal.Laws

noncomputable section

open scoped BigOperators

namespace Cert.LibMatmulNN

open Idealize.ShloMosaic Idealize.ShloMosaic.ValueIdx

variable {M N K : Nat}

/-- Two coordinates of one index at equal positions are equal, however the positions are spelt. -/
theorem coord_congr {s : Shape} (j : s.Idx) (a b : Nat) (ha : a < s.rank) (hb : b < s.rank) (e : a = b) :
    (j ⟨a, ha⟩).val = (j ⟨b, hb⟩).val := by
  subst e; rfl

/-- The left operand's row is the result's row. -/
theorem lhsIdx_row (d : DotDims ⟨2, ![M, K]⟩ ⟨2, ![K, N]⟩ ⟨2, ![M, N]⟩)
    (hlb : d.lhsBatch = []) (hln : d.lhsNonContracting = [0])
    (j : (⟨2, ![M, N]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  rw [Fin.val_cast]
  exact coord_congr j _ 0 _ (by show 0 < 2; omega) (by rw [hlb, hln]; rfl)

/-- The right operand's column is the result's column. -/
theorem rhsIdx_col (d : DotDims ⟨2, ![M, K]⟩ ⟨2, ![K, N]⟩ ⟨2, ![M, N]⟩)
    (hlb : d.lhsBatch = []) (hrb : d.rhsBatch = []) (hln : d.lhsNonContracting = [0]) (hrn : d.rhsNonContracting = [1])
    (j : (⟨2, ![M, N]⟩ : Shape).Idx) (k : d.contr.Idx) : (d.rhsIdx j k 1).val = (j 1).val := by
  unfold DotDims.rhsIdx
  rw [dif_neg (by rw [hrb]; exact List.not_mem_nil), dif_pos (by rw [hrn]; exact List.mem_singleton.mpr rfl)]
  rw [Fin.val_cast]
  exact coord_congr j _ 1 _ (by show 1 < 2; omega) (by rw [hlb, hln, hrn]; rfl)

/-- The contraction ranges over one axis, of extent `K`. -/
theorem contr_rank (d : DotDims ⟨2, ![M, K]⟩ ⟨2, ![K, N]⟩ ⟨2, ![M, N]⟩) (hlc : d.lhsContracting = [1]) :
    d.contr.rank = 1 := by
  rw [d.rank_contr, hlc]; rfl

theorem contr_size (d : DotDims ⟨2, ![M, K]⟩ ⟨2, ![K, N]⟩ ⟨2, ![M, N]⟩) (hlc : d.lhsContracting = [1]) :
    d.contr.size ⟨0, by rw [contr_rank d hlc]; exact Nat.one_pos⟩ = K := by
  rw [d.size_contr 0 (by rw [hlc]; exact Nat.one_pos), List.getElem_of_eq hlc]
  rfl

/-- `A · B` into a zero accumulator, at `(i, j)`, is `Σ_k A[i, k] · B[k, j]`. -/
theorem matmul_nn_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision) (A : FVec Ideal ⟨2, ![M, K]⟩ φ₁) (B : FVec Ideal ⟨2, ![K, N]⟩ φ₂)
    (i : Fin M) (j : Fin N) :
    matmul d prec A B (constant ⟨2, ![M, N]⟩ .f32 0x00000000#32) (ix2 i j) = ∑ k : Fin K, A (ix2 i k) * B (ix2 k j) := by
  have hr := contr_rank d hlc
  have hs := contr_size d hlc
  simp only [matmul]
  rw [Ideal.matmul_constant_zero_apply, ← Equiv.sum_comp (contrEquiv1 d K hr hs).symm]
  refine Finset.sum_congr rfl fun k _ => ?_
  have hk := contrEquiv1_symm_val d K hr hs k
  have el : d.lhsIdx (ix2 i j) ((contrEquiv1 d K hr hs).symm k) = ix2 i k := funext fun a => Fin.ext (by
    match a with
    | ⟨0, _⟩ => exact lhsIdx_row d hlb hln _ _
    | ⟨1, _⟩ => exact (d.lhsIdx_val_of_single hlc _ _).trans hk)
  have er : d.rhsIdx (ix2 i j) ((contrEquiv1 d K hr hs).symm k) = ix2 k j := funext fun a => Fin.ext (by
    match a with
    | ⟨0, _⟩ => exact (d.rhsIdx_val_of_single hrc _ _).trans hk
    | ⟨1, _⟩ => exact rhsIdx_col d hlb hrb hln hrn _ _)
  rw [el, er]

end Cert.LibMatmulNN

end
-- ==== Proof.LibHostMatmulNN.lean ====
/-
  A host program's matrix product `A · B` and a vector broadcast along the rows of a matrix, read at an index on the
  extended reals.

  `stablehlo.dot_general` of an `[M, K]` by a `[K, N]` operand — the left operand's last axis contracted with the right
  operand's first, no batch axes (jnp `x @ W`; dimension numbers `[1] x [0]`, free axes `[0]` and `[1]`) — is, at
  `(i, j)`, the sum over `k : Fin K` of `A(i, k) · B(k, j)`: the host's schedule of the additions does not matter on
  the extended reals. Stated for ANY record of dimension numbers with those six lists (each hypothesis closed by `rfl`
  at a printed record); imports only the Idealize library. `stablehlo.broadcast_in_dim` of a vector `[b]` to `[a, b]` along axis 1 (jnp `broadcast_to` of a
  bias or of one row of features to every row) reads, at `(p, c)`, the vector at `c`.
-/
import Idealize.ShloMosaic.Lib.ValueIdx
import Idealize.ShloMosaic.Lib.Pipeline.Value
import Idealize.ShloMosaic.PureOps.Ideal.Laws

noncomputable section

open scoped BigOperators

namespace Cert.LibHostMatmulNN

open Idealize.ShloMosaic Idealize.ShloMosaic.ValueIdx

variable {M N K : Nat}

/-- Two coordinates of one index at equal positions are equal, however the positions are spelt. -/
theorem coord_congr {s : Shape} (j : s.Idx) (a b : Nat) (ha : a < s.rank) (hb : b < s.rank) (e : a = b) :
    (j ⟨a, ha⟩).val = (j ⟨b, hb⟩).val := by
  subst e; rfl

/-- The left operand's row is the result's row. -/
theorem lhsIdx_row (d : DotDims ⟨2, ![M, K]⟩ ⟨2, ![K, N]⟩ ⟨2, ![M, N]⟩)
    (hlb : d.lhsBatch = []) (hln : d.lhsNonContracting = [0])
    (j : (⟨2, ![M, N]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  rw [Fin.val_cast]
  exact coord_congr j _ 0 _ (by show 0 < 2; omega) (by rw [hlb, hln]; rfl)

/-- The right operand's column is the result's column. -/
theorem rhsIdx_col (d : DotDims ⟨2, ![M, K]⟩ ⟨2, ![K, N]⟩ ⟨2, ![M, N]⟩)
    (hlb : d.lhsBatch = []) (hrb : d.rhsBatch = []) (hln : d.lhsNonContracting = [0]) (hrn : d.rhsNonContracting = [1])
    (j : (⟨2, ![M, N]⟩ : Shape).Idx) (k : d.contr.Idx) : (d.rhsIdx j k 1).val = (j 1).val := by
  unfold DotDims.rhsIdx
  rw [dif_neg (by rw [hrb]; exact List.not_mem_nil), dif_pos (by rw [hrn]; exact List.mem_singleton.mpr rfl)]
  rw [Fin.val_cast]
  exact coord_congr j _ 1 _ (by show 1 < 2; omega) (by rw [hlb, hln, hrn]; rfl)

/-- The contraction ranges over one axis, of extent `K`. -/
theorem contr_rank (d : DotDims ⟨2, ![M, K]⟩ ⟨2, ![K, N]⟩ ⟨2, ![M, N]⟩) (hlc : d.lhsContracting = [1]) :
    d.contr.rank = 1 := by
  rw [d.rank_contr, hlc]; rfl

theorem contr_size (d : DotDims ⟨2, ![M, K]⟩ ⟨2, ![K, N]⟩ ⟨2, ![M, N]⟩) (hlc : d.lhsContracting = [1]) :
    d.contr.size ⟨0, by rw [contr_rank d hlc]; exact Nat.one_pos⟩ = K := by
  rw [d.size_contr 0 (by rw [hlc]; exact Nat.one_pos), List.getElem_of_eq hlc]
  rfl

/-- The host's `A · B`, at `(i, j)`, is `Σ_k A[i, k] · B[k, j]`. -/
theorem hostDot_nn_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision) (A : FVec Ideal ⟨2, ![M, K]⟩ φ₁) (B : FVec Ideal ⟨2, ![K, N]⟩ φ₂)
    (i : Fin M) (j : Fin N) :
    Host.dotGeneral d prec A B (ix2 i j) = ∑ k : Fin K, A (ix2 i k) * B (ix2 k j) := by
  have hr := contr_rank d hlc
  have hs := contr_size d hlc
  simp only [Host.dotGeneral]
  rw [Ideal.dotGeneral_apply, ← Equiv.sum_comp (contrEquiv1 d K hr hs).symm]
  refine Finset.sum_congr rfl fun k _ => ?_
  have hk := contrEquiv1_symm_val d K hr hs k
  have el : d.lhsIdx (ix2 i j) ((contrEquiv1 d K hr hs).symm k) = ix2 i k := funext fun a => Fin.ext (by
    match a with
    | ⟨0, _⟩ => exact lhsIdx_row d hlb hln _ _
    | ⟨1, _⟩ => exact (d.lhsIdx_val_of_single hlc _ _).trans hk)
  have er : d.rhsIdx (ix2 i j) ((contrEquiv1 d K hr hs).symm k) = ix2 k j := funext fun a => Fin.ext (by
    match a with
    | ⟨0, _⟩ => exact (d.rhsIdx_val_of_single hrc _ _).trans hk
    | ⟨1, _⟩ => exact rhsIdx_col d hlb hrb hln hrn _ _)
  rw [el, er]

/-- A vector `[b]` broadcast to `[a, b]` along the rows reads, at `(p, c)`, the vector at `c`. -/
theorem broadcastInDim_b_ab_apply {α : Type} {a b : ℕ} (dims : Fin 1 → Fin 2)
    (h : (⟨1, ![b]⟩ : Shape).BroadcastsInDim ⟨2, ![a, b]⟩ dims) (hd : dims 0 = 1)
    (v : (⟨1, ![b]⟩ : Shape).Idx → α) (p : Fin a) (c : Fin b) :
    broadcastInDim ⟨2, ![a, b]⟩ dims h v (ix2 p c) = v (ix1 c) := by
  refine broadcastInDim_apply dims h v (ix2 p c) (ix1 c) fun ax => ?_
  match ax with
  | ⟨0, _⟩ =>
    show c.val = if b = 1 then 0 else (ix2 p c (dims 0)).val
    rw [hd]
    show c.val = if b = 1 then 0 else c.val
    split
    · have := c.isLt; omega
    · rfl

end Cert.LibHostMatmulNN

end
-- ==== Proof.LibHostKeepdims.lean ====
/-
  Keepdims layouts of a host program, and row maxima, read at an index given by coordinates.

  `x - x.max(axis=1, keepdims=True)` over a matrix `[a, b]` is, in a host program, a reduction `[a, b] → [a]`, a
  `broadcast_in_dim` `[a] → [a, 1]` (the kept axis) and another `[a, 1] → [a, b]` (the subtraction's broadcast); a
  vector of per-column values `[b]` meets the matrix through `[b] → [1, b] → [a, b]`. Read at `(p, c)` the first
  composite is the operand at row `p`, the second the operand at column `c`. The four steps are the first four lemmas;
  a rank-0 operand broadcast to any shape is its one element everywhere. Then the two host reductions along the rows
  (the sum, at the ideal values, and the maximum, a fold of `max` in any order), the kernel's lane maximum along the
  rows in the same words, and the kernel's cast `[a, 1] → [a]` that drops a kept axis again.
  The `dims` of a `broadcast_in_dim` are a variable; the lemmas ask only which result axis each operand axis is sent to.
-/
import Idealize.ShloMosaic.Lib.ValueLayout
import Idealize.ShloMosaic.PureOps.Ideal.Laws

noncomputable section

open scoped BigOperators

namespace Idealize.ShloMosaic.ValueIdx

open Idealize.ShloMosaic

section Layout
variable {α : Type}

/-- A vector `[a]` broadcast to the column `[a, 1]` reads, at `(p, u)`, the vector at `p`. -/
theorem broadcastInDim_a_a1_apply {a : ℕ} (dims : Fin 1 → Fin 2)
    (h : (⟨1, ![a]⟩ : Shape).BroadcastsInDim ⟨2, ![a, 1]⟩ dims) (hd : dims 0 = 0)
    (v : (⟨1, ![a]⟩ : Shape).Idx → α) (p : Fin a) (u : Fin 1) :
    broadcastInDim ⟨2, ![a, 1]⟩ dims h v (ix2 p u) = v (ix1 p) := by
  refine broadcastInDim_apply dims h v (ix2 p u) (ix1 p) fun ax => ?_
  match ax with
  | ⟨0, _⟩ =>
    show p.val = if a = 1 then 0 else (ix2 p u (dims 0)).val
    rw [hd]
    show p.val = if a = 1 then 0 else p.val
    split
    · have := p.isLt; omega
    · rfl

/-- A column `[a, 1]` broadcast to `[a, b]` reads, at `(p, c)`, the column at row `p`. -/
theorem broadcastInDim_a1_ab_apply {a b : ℕ} (dims : Fin 2 → Fin 2)
    (h : (⟨2, ![a, 1]⟩ : Shape).BroadcastsInDim ⟨2, ![a, b]⟩ dims) (hd : dims 0 = 0)
    (v : (⟨2, ![a, 1]⟩ : Shape).Idx → α) (p : Fin a) (c : Fin b) :
    broadcastInDim ⟨2, ![a, b]⟩ dims h v (ix2 p c) = v (ix2 p (0 : Fin 1)) := by
  refine broadcastInDim_apply dims h v (ix2 p c) (ix2 p (0 : Fin 1)) fun ax => ?_
  match ax with
  | ⟨0, _⟩ =>
    show p.val = if a = 1 then 0 else (ix2 p c (dims 0)).val
    rw [hd]
    show p.val = if a = 1 then 0 else p.val
    split
    · have := p.isLt; omega
    · rfl
  | ⟨1, _⟩ => rfl

/-- A vector `[b]` broadcast to the row `[1, b]` reads, at `(u, c)`, the vector at `c`. -/
theorem broadcastInDim_b_1b_apply {b : ℕ} (dims : Fin 1 → Fin 2)
    (h : (⟨1, ![b]⟩ : Shape).BroadcastsInDim ⟨2, ![1, b]⟩ dims) (hd : dims 0 = 1)
    (v : (⟨1, ![b]⟩ : Shape).Idx → α) (u : Fin 1) (c : Fin b) :
    broadcastInDim ⟨2, ![1, b]⟩ dims h v (ix2 u c) = v (ix1 c) := by
  refine broadcastInDim_apply dims h v (ix2 u c) (ix1 c) fun ax => ?_
  match ax with
  | ⟨0, _⟩ =>
    show c.val = if b = 1 then 0 else (ix2 u c (dims 0)).val
    rw [hd]
    show c.val = if b = 1 then 0 else c.val
    split
    · have := c.isLt; omega
    · rfl

/-- A row `[1, b]` broadcast to `[a, b]` reads, at `(p, c)`, the row at column `c`. -/
theorem broadcastInDim_1b_ab_apply {a b : ℕ} (dims : Fin 2 → Fin 2)
    (h : (⟨2, ![1, b]⟩ : Shape).BroadcastsInDim ⟨2, ![a, b]⟩ dims) (hd : dims 1 = 1)
    (v : (⟨2, ![1, b]⟩ : Shape).Idx → α) (p : Fin a) (c : Fin b) :
    broadcastInDim ⟨2, ![a, b]⟩ dims h v (ix2 p c) = v (ix2 (0 : Fin 1) c) := by
  refine broadcastInDim_apply dims h v (ix2 p c) (ix2 (0 : Fin 1) c) fun ax => ?_
  match ax with
  | ⟨0, _⟩ => rfl
  | ⟨1, _⟩ =>
    show c.val = if b = 1 then 0 else (ix2 p c (dims 1)).val
    rw [hd]
    show c.val = if b = 1 then 0 else c.val
    split
    · have := c.isLt; omega
    · rfl

/-- A rank-0 operand broadcast to any shape reads its one element everywhere. -/
theorem broadcastInDim_scalar_apply {t : Shape} (dims : Fin 0 → Fin t.rank)
    (h : (⟨0, ![]⟩ : Shape).BroadcastsInDim t dims) (v : (⟨0, ![]⟩ : Shape).Idx → α) (j : t.Idx) :
    broadcastInDim t dims h v j = v ix0 :=
  broadcastInDim_apply dims h v j ix0 fun ax => ax.elim0

/-- A column `[a, 1]` cast to the vector `[a]` reads, at `i`, the column at row `i`. -/
theorem shapeCast_a1_a_apply {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

end Layout

/-- The host's sum of an `[a, b]` matrix along its rows, at the ideal values and read at row `r`: the initial value
    plus the sum over the row. -/
theorem hostReduceAdd_rows_apply {a b : ℕ} {φ : FTy} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (r : Fin a) :
    Host.reduceAdd x init h' hu (ix1 r) = init (Shape.Idx.first hu) + ∑ k : Fin b, x (ix2 r k) := by
  simp only [Host.reduceAdd, Ideal.hostReduceAdd_def]
  rw [Ideal.hostReduceAdd_single h' h]
  refine congrArg (_ + ·) (Finset.sum_congr rfl fun k _ => congrArg x (funext fun ax => Fin.ext ?_))
  match ax with
  | ⟨0, _⟩ => rfl
  | ⟨1, _⟩ => rfl

/-- The host's maximum of an `[a, b]` matrix along its rows, read at row `r`: the fold of `max`, from the initial
    value, over the row, in any order. -/
theorem hostReduce_max_rows_apply {a b : ℕ} {φ : FTy} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (r : Fin a) :
    Host.reduce (FloatOps.maximumf (F := Ideal) (φ := φ)) x init h' hu (ix1 r)
      = (Finset.univ : Finset (Fin b)).fold max (init (Shape.Idx.first hu)) (fun k => x (ix2 r k)) := by
  refine (Host.reduce_eq_fold_single (FloatOps.maximumf (F := Ideal) (φ := φ)) x init h' h hu (ix1 r)).trans ?_
  refine congrArg (Finset.fold _ _ · _) (funext fun k => congrArg x (funext fun ax => Fin.ext ?_))
  match ax with
  | ⟨0, _⟩ => rfl
  | ⟨1, _⟩ => rfl

/-- A kernel's lane maximum of an `[a, b]` matrix along its rows, at the ideal values and read at row `r`: the fold of
    `max`, from the accumulator's value, over the row. -/
theorem multiReduction_maximumf_rows_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (r : Fin a) :
    multiReduction .maximumf [1] ⟨1, ![a]⟩ src acc h hφ hacc (ix1 r)
      = (Finset.univ : Finset (Fin b)).fold max (Ideal.ofBits φ acc) (fun k => src (ix2 r k)) := by
  refine (Ideal.multiReduction_maximumf_single src acc h hφ hacc (ix1 r)).trans ?_
  refine congrArg (Finset.fold _ _ · _) (funext fun k => congrArg src (funext fun ax => Fin.ext ?_))
  match ax with
  | ⟨0, _⟩ => rfl
  | ⟨1, _⟩ => rfl

end Idealize.ShloMosaic.ValueIdx

end
-- ==== Proof.LibSageLayer.lean ====
/-
  GENERAL LEMMAS: the arithmetic of one SAGE layer (mean aggregation + two linear maps + bias), index by index, on the
  extended reals; they import only the library and three general lemma files.

  A layer takes node features `h` ([M, K]), the neighbour means `hn` ([M, K]), two weight matrices ([K, N]) and a bias
  ([N]) to `h · W_self + hn · W_neigh + b`; the first two layers clamp the result at zero. Entry `(p, q)` depends on row
  `p` of `h` and of `hn`, on column `q` of the two weights and on `b q` only, so a tiling of the rows changes nothing.
  The neighbour mean is the edge sum divided by `max(deg, 1)`; multiplying by the reciprocal `1 / max(deg, 1)` instead is the
  same extended real, because the divisor is at least one (never zero), whatever the edge sum is — no finiteness is used.
-/
import Idealize.ShloMosaic.Lib.ValueIdx
import Idealize.ShloMosaic.Lib.ValueLayout
import Idealize.ShloMosaic.Lib.Pipeline.Value
import Idealize.ShloMosaic.PureOps.Ideal.Laws
import proofs.«102059_j10797547782307_1_alg».proof.Proof.LibMatmulNN
import proofs.«102059_j10797547782307_1_alg».proof.Proof.LibHostMatmulNN
import proofs.«102059_j10797547782307_1_alg».proof.Proof.LibHostKeepdims

noncomputable section

open scoped BigOperators

namespace Cert.Sage

open Idealize.ShloMosaic Idealize.ShloMosaic.ValueIdx

variable {M K N : ℕ}

/-- Entry `(p, q)` of `h · Ws + hn · Wn + b`. -/
def linAt (h hn : FVec Ideal ⟨2, ![M, K]⟩ .f32) (Ws Wn : FVec Ideal ⟨2, ![K, N]⟩ .f32) (b : Fin N → EReal)
    (p : Fin M) (q : Fin N) : EReal :=
  (∑ k : Fin K, h (ix2 p k) * Ws (ix2 k q)) + (∑ k : Fin K, hn (ix2 p k) * Wn (ix2 k q)) + b q

/-- The layer without the clamp: `h · Ws + hn · Wn + b`. -/
def lin (h hn : FVec Ideal ⟨2, ![M, K]⟩ .f32) (Ws Wn : FVec Ideal ⟨2, ![K, N]⟩ .f32) (b : Fin N → EReal) :
    FVec Ideal ⟨2, ![M, N]⟩ .f32 :=
  fun j => linAt h hn Ws Wn b (j 0) (j 1)

/-- The layer clamped at zero: `max (h · Ws + hn · Wn + b) 0`. -/
def linRelu (h hn : FVec Ideal ⟨2, ![M, K]⟩ .f32) (Ws Wn : FVec Ideal ⟨2, ![K, N]⟩ .f32) (b : Fin N → EReal) :
    FVec Ideal ⟨2, ![M, N]⟩ .f32 :=
  fun j => max (linAt h hn Ws Wn b (j 0) (j 1)) 0

/-- The host's two whole matrix products plus the bias broadcast along the rows are the layer. -/
theorem host_lin (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (dims1 : Fin 1 → Fin 2) (h1 : (⟨1, ![N]⟩ : Shape).BroadcastsInDim ⟨2, ![1, N]⟩ dims1) (hd1 : dims1 0 = 1)
    (dims2 : Fin 2 → Fin 2) (h2 : (⟨2, ![1, N]⟩ : Shape).BroadcastsInDim ⟨2, ![M, N]⟩ dims2) (hd2 : dims2 1 = 1)
    (h hn : FVec Ideal ⟨2, ![M, K]⟩ .f32) (Ws Wn : FVec Ideal ⟨2, ![K, N]⟩ .f32) (b : FVec Ideal ⟨1, ![N]⟩ .f32) :
    addf (addf (Host.dotGeneral d none h Ws) (Host.dotGeneral d none hn Wn))
        (broadcastInDim ⟨2, ![M, N]⟩ dims2 h2 (broadcastInDim ⟨2, ![1, N]⟩ dims1 h1 b))
      = lin h hn Ws Wn (fun q => b (ix1 q)) := by
  funext j
  obtain ⟨p, q, rfl⟩ : ∃ (p : Fin M) (q : Fin N), j = ix2 p q := ⟨j 0, j 1, eq_ix2 j⟩
  rw [addf_apply, addf_apply, Cert.LibHostMatmulNN.hostDot_nn_apply d hlc hrc hln hrn hlb hrb,
    Cert.LibHostMatmulNN.hostDot_nn_apply d hlc hrc hln hrn hlb hrb,
    broadcastInDim_1b_ab_apply dims2 h2 hd2, broadcastInDim_b_1b_apply dims1 h1 hd1]
  rfl

/-- The host's clamp against a broadcast zero is `max · 0` at every entry. -/
theorem host_relu {s : Shape} (dims0 : Fin 0 → Fin s.rank) (h0 : (⟨0, ![]⟩ : Shape).BroadcastsInDim s dims0)
    (X : FVec Ideal s .f32) :
    maximumf X (broadcastInDim s dims0 h0 (constant (F := Ideal) ⟨0, ![]⟩ .f32 0x00000000#32)) = fun j => max (X j) 0 := by
  funext j
  rw [maximumf_apply, broadcastInDim_scalar_apply dims0 h0, constant_apply, Ideal.ofBits_zero_f32]

/-- The layer with the clamp, as the host spells it. -/
theorem host_linRelu (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (dims1 : Fin 1 → Fin 2) (h1 : (⟨1, ![N]⟩ : Shape).BroadcastsInDim ⟨2, ![1, N]⟩ dims1) (hd1 : dims1 0 = 1)
    (dims2 : Fin 2 → Fin 2) (h2 : (⟨2, ![1, N]⟩ : Shape).BroadcastsInDim ⟨2, ![M, N]⟩ dims2) (hd2 : dims2 1 = 1)
    (dims0 : Fin 0 → Fin 2) (h0 : (⟨0, ![]⟩ : Shape).BroadcastsInDim ⟨2, ![M, N]⟩ dims0)
    (h hn : FVec Ideal ⟨2, ![M, K]⟩ .f32) (Ws Wn : FVec Ideal ⟨2, ![K, N]⟩ .f32) (b : FVec Ideal ⟨1, ![N]⟩ .f32) :
    maximumf (addf (addf (Host.dotGeneral d none h Ws) (Host.dotGeneral d none hn Wn))
        (broadcastInDim ⟨2, ![M, N]⟩ dims2 h2 (broadcastInDim ⟨2, ![1, N]⟩ dims1 h1 b)))
        (broadcastInDim ⟨2, ![M, N]⟩ dims0 h0 (constant (F := Ideal) ⟨0, ![]⟩ .f32 0x00000000#32))
      = linRelu h hn Ws Wn (fun q => b (ix1 q)) := by
  rw [host_relu, host_lin d hlc hrc hln hrn hlb hrb dims1 h1 hd1 dims2 h2 hd2]
  rfl

/-- The word of `1.0` is the real one. -/
theorem one_f32 : Ideal.ofBits .f32 0x3F800000#32 = (1 : EReal) := by
  simp [Ideal.ofBits, Ideal.ieee]
  rw [← EReal.coe_mul]
  norm_num

/-- Dividing by `max s 1` is multiplying by its reciprocal `1 / max s 1`: the divisor is never zero. -/
theorem mul_recip_eq_div (x s : EReal) : x * Ideal.div 1 (max s 1) = Ideal.div x (max s 1) := by
  have hd : max s 1 ≠ 0 := ne_of_gt (lt_of_lt_of_le zero_lt_one (le_max_right _ _))
  unfold Ideal.div
  rw [if_neg hd, if_neg hd, one_mul]

/-- The neighbour mean: the edge sums times the broadcast reciprocal of `max(deg, 1)` are the edge sums divided by
    the broadcast `max(deg, 1)`. -/
theorem mean_eq (dims0 : Fin 0 → Fin 1) (h0 : (⟨0, ![]⟩ : Shape).BroadcastsInDim ⟨1, ![M]⟩ dims0)
    (dimsA : Fin 1 → Fin 2) (hA : (⟨1, ![M]⟩ : Shape).BroadcastsInDim ⟨2, ![M, 1]⟩ dimsA) (hdA : dimsA 0 = 0)
    (dimsB : Fin 2 → Fin 2) (hB : (⟨2, ![M, 1]⟩ : Shape).BroadcastsInDim ⟨2, ![M, K]⟩ dimsB) (hdB : dimsB 0 = 0)
    (A : FVec Ideal ⟨2, ![M, K]⟩ .f32) (s : FVec Ideal ⟨1, ![M]⟩ .f32) :
    mulf A (broadcastInDim ⟨2, ![M, K]⟩ dimsB hB (broadcastInDim ⟨2, ![M, 1]⟩ dimsA hA
        (Host.divf (broadcastInDim ⟨1, ![M]⟩ dims0 h0 (constant (F := Ideal) ⟨0, ![]⟩ .f32 0x3F800000#32))
          (maximumf s (broadcastInDim ⟨1, ![M]⟩ dims0 h0 (constant (F := Ideal) ⟨0, ![]⟩ .f32 0x3F800000#32))))))
      = Host.divf A (broadcastInDim ⟨2, ![M, K]⟩ dimsB hB (broadcastInDim ⟨2, ![M, 1]⟩ dimsA hA
          (maximumf s (broadcastInDim ⟨1, ![M]⟩ dims0 h0 (constant (F := Ideal) ⟨0, ![]⟩ .f32 0x3F800000#32))))) := by
  funext j
  obtain ⟨p, q, rfl⟩ : ∃ (p : Fin M) (q : Fin K), j = ix2 p q := ⟨j 0, j 1, eq_ix2 j⟩
  show A (ix2 p q) * _ = Ideal.div (A (ix2 p q)) _
  rw [broadcastInDim_a1_ab_apply dimsB hB hdB, broadcastInDim_a_a1_apply dimsA hA hdA,
    broadcastInDim_a1_ab_apply dimsB hB hdB, broadcastInDim_a_a1_apply dimsA hA hdA]
  show A (ix2 p q) * Ideal.div _ _ = _
  rw [maximumf_apply, broadcastInDim_scalar_apply (t := ⟨1, ![M]⟩) dims0 h0, constant_apply, one_f32]
  exact mul_recip_eq_div _ _

end Cert.Sage

end
-- ==== Proof.Layer.lean ====
/-
  One SAGE layer, two spellings, one function.

  A layer maps the neighbour means `a` ([M, K]), the node features `x` ([M, K]), two weight matrices ([K, N]) and a
  bias to `a · Wl + x · Wr + b`, clamped at zero in the first two layers (`Cert.Sage.lin`, `Cert.Sage.linRelu`).

  * On a block of rows the kernel body computes `(a · Wl + x · Wr) + b` by two matrix products into zero accumulators, the
    operands rounded to bf16 on the way in (the identity on the extended reals), the bias held as one row `[1, N]`
    spread over the rows, and clamps against a zero spread over the block.
  * The host reference computes `(a · Wl + b) + x · Wr` by two whole matrix products, the bias `[N]` spread first to one
    row and then over the rows.

  The two differ by the order of the three summands only: addition of extended reals is commutative and associative, so
  no finiteness is needed. Entry `(p, q)` depends on row `p` of `a` and `x` alone, so a block of rows of the layer is the
  layer of the blocks of rows.
-/
import Idealize.ShloMosaic.Lib.ValueIdx
import Idealize.ShloMosaic.Lib.ValueLayout
import Idealize.ShloMosaic.Lib.Pipeline.Value
import Idealize.ShloMosaic.PureOps.Ideal.Laws
import proofs.«102059_j10797547782307_1_alg».proof.Proof.LibSageLayer

noncomputable section

open scoped BigOperators

namespace Cert.SageNet

open Idealize.ShloMosaic Idealize.ShloMosaic.ValueIdx Cert.Sage

variable {R M K N : ℕ}

/-- The kernel body's value on a block of `R` rows, clamped: `max ((a · Wl + x · Wr) + b) 0`. -/
theorem block_linRelu (d : DotDims ⟨2, ![R, K]⟩ ⟨2, ![K, N]⟩ ⟨2, ![R, N]⟩)
    (hlc : d.lhsContracting = [1]) (hrc : d.rhsContracting = [0])
    (hln : d.lhsNonContracting = [0]) (hrn : d.rhsNonContracting = [1])
    (hlb : d.lhsBatch = []) (hrb : d.rhsBatch = [])
    (hbc : (⟨2, ![1, N]⟩ : Shape).Broadcasts ⟨2, ![R, N]⟩) (hbf : FTy.bf16.bits < FTy.f32.bits)
    (a x : FVec Ideal ⟨2, ![R, K]⟩ .f32) (wl wr : FVec Ideal ⟨2, ![K, N]⟩ .f32) (b : FVec Ideal ⟨2, ![1, N]⟩ .f32) :
    maximumf (addf (addf (matmul d none (truncf .bf16 a hbf) (truncf .bf16 wl hbf) (constant ⟨2, ![R, N]⟩ .f32 0x00000000#32))
        (matmul d none (truncf .bf16 x hbf) (truncf .bf16 wr hbf) (constant ⟨2, ![R, N]⟩ .f32 0x00000000#32)))
        (broadcastTo ⟨2, ![R, N]⟩ b hbc))
        (broadcast ⟨2, ![R, N]⟩ (Scalar.ofBits (F := Ideal) .f32 0x00000000#32))
      = linRelu a x wl wr (fun q => b (ix2 (0 : Fin 1) q)) := by
  funext j
  obtain ⟨p, q, rfl⟩ : ∃ (p : Fin R) (q : Fin N), j = ix2 p q := ⟨j 0, j 1, eq_ix2 j⟩
  rw [maximumf_apply, addf_apply, addf_apply,
    Cert.LibMatmulNN.matmul_nn_apply d hlc hrc hln hrn hlb hrb, Cert.LibMatmulNN.matmul_nn_apply d hlc hrc hln hrn hlb hrb,
    broadcastTo_1b_ab_apply b hbc, broadcast_apply]
  show max _ (Ideal.ofBits .f32 0x00000000#32) = _
  rw [Ideal.ofBits_zero_f32]
  rfl

/-- The kernel body's value on a block of `R` rows, not clamped: `(a · Wl + x · Wr) + b`. -/
theorem block_lin (d : DotDims ⟨2, ![R, K]⟩ ⟨2, ![K, N]⟩ ⟨2, ![R, N]⟩)
    (hlc : d.lhsContracting = [1]) (hrc : d.rhsContracting = [0])
    (hln : d.lhsNonContracting = [0]) (hrn : d.rhsNonContracting = [1])
    (hlb : d.lhsBatch = []) (hrb : d.rhsBatch = [])
    (hbc : (⟨2, ![1, N]⟩ : Shape).Broadcasts ⟨2, ![R, N]⟩) (hbf : FTy.bf16.bits < FTy.f32.bits)
    (a x : FVec Ideal ⟨2, ![R, K]⟩ .f32) (wl wr : FVec Ideal ⟨2, ![K, N]⟩ .f32) (b : FVec Ideal ⟨2, ![1, N]⟩ .f32) :
    addf (addf (matmul d none (truncf .bf16 a hbf) (truncf .bf16 wl hbf) (constant ⟨2, ![R, N]⟩ .f32 0x00000000#32))
        (matmul d none (truncf .bf16 x hbf) (truncf .bf16 wr hbf) (constant ⟨2, ![R, N]⟩ .f32 0x00000000#32)))
        (broadcastTo ⟨2, ![R, N]⟩ b hbc)
      = lin a x wl wr (fun q => b (ix2 (0 : Fin 1) q)) := by
  funext j
  obtain ⟨p, q, rfl⟩ : ∃ (p : Fin R) (q : Fin N), j = ix2 p q := ⟨j 0, j 1, eq_ix2 j⟩
  rw [addf_apply, addf_apply,
    Cert.LibMatmulNN.matmul_nn_apply d hlc hrc hln hrn hlb hrb, Cert.LibMatmulNN.matmul_nn_apply d hlc hrc hln hrn hlb hrb,
    broadcastTo_1b_ab_apply b hbc]
  rfl

/-- The host's spelling `(a · Wl + b) + x · Wr` is the layer: the three summands commute. -/
theorem host_lin_mid (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (dims1 : Fin 1 → Fin 2) (h1 : (⟨1, ![N]⟩ : Shape).BroadcastsInDim ⟨2, ![1, N]⟩ dims1) (hd1 : dims1 0 = 1)
    (dims2 : Fin 2 → Fin 2) (h2 : (⟨2, ![1, N]⟩ : Shape).BroadcastsInDim ⟨2, ![M, N]⟩ dims2) (hd2 : dims2 1 = 1)
    (a x : FVec Ideal ⟨2, ![M, K]⟩ .f32) (wl wr : FVec Ideal ⟨2, ![K, N]⟩ .f32) (b : FVec Ideal ⟨1, ![N]⟩ .f32) :
    addf (addf (Host.dotGeneral d none a wl)
        (broadcastInDim ⟨2, ![M, N]⟩ dims2 h2 (broadcastInDim ⟨2, ![1, N]⟩ dims1 h1 b))) (Host.dotGeneral d none x wr)
      = lin a x wl wr (fun q => b (ix1 q)) := by
  funext j
  obtain ⟨p, q, rfl⟩ : ∃ (p : Fin M) (q : Fin N), j = ix2 p q := ⟨j 0, j 1, eq_ix2 j⟩
  rw [addf_apply, addf_apply, Cert.LibHostMatmulNN.hostDot_nn_apply d hlc hrc hln hrn hlb hrb,
    Cert.LibHostMatmulNN.hostDot_nn_apply d hlc hrc hln hrn hlb hrb,
    broadcastInDim_1b_ab_apply dims2 h2 hd2, broadcastInDim_b_1b_apply dims1 h1 hd1]
  exact add_right_comm _ _ _

/-- The same, clamped by the host against a zero spread over the whole array. -/
theorem host_linRelu_mid (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (dims1 : Fin 1 → Fin 2) (h1 : (⟨1, ![N]⟩ : Shape).BroadcastsInDim ⟨2, ![1, N]⟩ dims1) (hd1 : dims1 0 = 1)
    (dims2 : Fin 2 → Fin 2) (h2 : (⟨2, ![1, N]⟩ : Shape).BroadcastsInDim ⟨2, ![M, N]⟩ dims2) (hd2 : dims2 1 = 1)
    (dims0 : Fin 0 → Fin 2) (h0 : (⟨0, ![]⟩ : Shape).BroadcastsInDim ⟨2, ![M, N]⟩ dims0)
    (a x : FVec Ideal ⟨2, ![M, K]⟩ .f32) (wl wr : FVec Ideal ⟨2, ![K, N]⟩ .f32) (b : FVec Ideal ⟨1, ![N]⟩ .f32) :
    maximumf (addf (addf (Host.dotGeneral d none a wl)
        (broadcastInDim ⟨2, ![M, N]⟩ dims2 h2 (broadcastInDim ⟨2, ![1, N]⟩ dims1 h1 b))) (Host.dotGeneral d none x wr))
        (broadcastInDim ⟨2, ![M, N]⟩ dims0 h0 (constant (F := Ideal) ⟨0, ![]⟩ .f32 0x00000000#32))
      = linRelu a x wl wr (fun q => b (ix1 q)) := by
  rw [host_relu, host_lin_mid d hlc hrc hln hrn hlb hrb dims1 h1 hd1 dims2 h2 hd2]
  rfl

/-- Entry `(p, q)` of a layer reads row `p` of `a` and of `x` only: if a block's rows are rows of the whole arrays, its
    entry is the whole layer's entry at that row. -/
theorem linAt_rows (ab xb : FVec Ideal ⟨2, ![R, K]⟩ .f32) (a x : FVec Ideal ⟨2, ![M, K]⟩ .f32)
    (wl wr : FVec Ideal ⟨2, ![K, N]⟩ .f32) (b : Fin N → EReal) (p : Fin R) (r : Fin M) (q : Fin N)
    (ha : ∀ k : Fin K, ab (ix2 p k) = a (ix2 r k)) (hx : ∀ k : Fin K, xb (ix2 p k) = x (ix2 r k)) :
    linAt ab xb wl wr b p q = linAt a x wl wr b r q := by
  unfold linAt
  simp only [ha, hx]

/-- A block's entry of the clamped layer is the whole layer's entry, when the block's rows of `a` and `x` are the whole
    arrays' rows at the entry's row, the column is the same, and the weights and the bias row are the whole ones. -/
theorem point_linRelu (ab xb : FVec Ideal ⟨2, ![R, K]⟩ .f32) (wlb wrb : FVec Ideal ⟨2, ![K, N]⟩ .f32)
    (bb : FVec Ideal ⟨2, ![1, N]⟩ .f32) (a x : FVec Ideal ⟨2, ![M, K]⟩ .f32) (wl wr : FVec Ideal ⟨2, ![K, N]⟩ .f32)
    (b : FVec Ideal ⟨2, ![1, N]⟩ .f32) (p : Fin R) (r : Fin M) (q : Fin N)
    (ha : ∀ k : Fin K, ab (ix2 p k) = a (ix2 r k)) (hx : ∀ k : Fin K, xb (ix2 p k) = x (ix2 r k))
    (hwl : wlb = wl) (hwr : wrb = wr) (hb : bb = b) :
    linRelu ab xb wlb wrb (fun q => bb (ix2 (0 : Fin 1) q)) (ix2 p q)
      = linRelu a x wl wr (fun q => b (ix2 (0 : Fin 1) q)) (ix2 r q) := by
  subst hwl hwr hb
  show max (linAt ab xb wlb wrb _ p q) 0 = max (linAt a x wlb wrb _ r q) 0
  rw [linAt_rows ab xb a x wlb wrb _ p r q ha hx]

/-- The same without the clamp. -/
theorem point_lin (ab xb : FVec Ideal ⟨2, ![R, K]⟩ .f32) (wlb wrb : FVec Ideal ⟨2, ![K, N]⟩ .f32)
    (bb : FVec Ideal ⟨2, ![1, N]⟩ .f32) (a x : FVec Ideal ⟨2, ![M, K]⟩ .f32) (wl wr : FVec Ideal ⟨2, ![K, N]⟩ .f32)
    (b : FVec Ideal ⟨2, ![1, N]⟩ .f32) (p : Fin R) (r : Fin M) (q : Fin N)
    (ha : ∀ k : Fin K, ab (ix2 p k) = a (ix2 r k)) (hx : ∀ k : Fin K, xb (ix2 p k) = x (ix2 r k))
    (hwl : wlb = wl) (hwr : wrb = wr) (hb : bb = b) :
    lin ab xb wlb wrb (fun q => bb (ix2 (0 : Fin 1) q)) (ix2 p q)
      = lin a x wl wr (fun q => b (ix2 (0 : Fin 1) q)) (ix2 r q) := by
  subst hwl hwr hb
  show linAt ab xb wlb wrb _ p q = linAt a x wlb wrb _ r q
  rw [linAt_rows ab xb a x wlb wrb _ p r q ha hx]

end Cert.SageNet

end
-- ==== Proof.KernelRegion0.lean ====
/-
  The first call's output array as one function of the arrays the call finds.

  The call runs ten grid points; point `t` stages rows `5000·t … 5000·t + 4999` of the neighbour means and of the node
  features, the two weight matrices and the bias row whole, and writes back rows `5000·t …` of the output. What it
  writes is the body's value on the staged blocks: the clamped layer of the blocks. An entry of the layer reads one row of
  the means and of the features, so the block written at point `t` is block `t` of the clamped layer of the WHOLE arrays;
  the ten blocks tile the 50000 rows, so the output array ends as that layer.
-/
import proofs.«102059_j10797547782307_1_alg».proof.Proof.Gen.KernelIdeal.Frame
import proofs.«102059_j10797547782307_1_alg».proof.Proof.Layer
import Idealize.ShloMosaic.Lib.Pipeline.Value

set_option maxRecDepth 16384

noncomputable section

namespace Cert.KernelIdeal.Layer0

open Cert.KernelIdeal Cert.KernelIdeal.Gen Idealize.ShloMosaic Idealize.ShloMosaic.TcCoe Idealize.SL.Sem
open Idealize.ShloMosaic.ValueIdx Cert.Sage Cert.SageNet
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's value on its staged blocks is the clamped layer of the blocks. -/
theorem pay_eq (v0 v3 : FVec Ideal S5000x128 .f32) (v5 v7 : FVec Ideal S128x128 .f32) (v12 : FVec Ideal S1x128 .f32) :
    k0_pay1 (F := Ideal) v0 v3 v5 v7 v12 = linRelu v0 v3 v5 v7 (fun q => v12 (ix2 (0 : Fin 1) q)) := by
  unfold k0_pay1
  simp only [shapeCast_self]
  exact block_linRelu dot_S5000x128_S128x128_S5000x128_1_0_0_1_n_n rfl rfl rfl rfl rfl rfl _ _ v0 v3 v5 v7 v12

/-- The clamped layer of the whole arrays the call finds. -/
def G (c : Dev nD) : S50000x128.Idx → EReal :=
  linRelu (V c main_v24) (V c main_arg0) (V c main_arg2) (V c main_arg4) (fun q => V c main_v25 (ix2 (0 : Fin 1) q))

/-- The printed index maps over the grid: the row windows move with the point, the whole windows stay. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- What point `t` writes back is block `t` of the layer of the whole arrays. -/
theorem flushed_eq (c : Dev nD) (t : Fin cfg0.N) :
    (dat0 V c).flushed 5 t = ((cfg0.win 5).blk t).view.read (Elt Ideal) (G V c) := by
  show (cfg0.win 5).cut (grid0.coords t) ((dat0 V c).after 5 t) = _
  rw [after0_5]
  unfold out0_5
  rw [View.canon_unit_zero hz]
  simp only [View.ld_unit_zero (S := S5000x128) hz, View.ld_unit_zero (S := S128x128) hz, View.ld_unit_zero (S := S1x128) hz]
  rw [pay_eq]
  obtain ⟨e00, e01, e10, e11, e20, e21, e30, e31, e40, e41, e50, e51⟩ := idx_facts t
  have ht : t.val < 10 := lt_of_lt_of_eq t.isLt N_0
  funext j
  obtain ⟨p, q, rfl⟩ : ∃ (p : Fin 5000) (q : Fin 128), j = (ix2 p q : S5000x128.Idx) :=
    ⟨j 0, j 1, eq_ix2 (n0 := 5000) (n1 := 128) j⟩
  have hr : t.val * 5000 + p.val < 50000 := by have := p.isLt; omega
  refine (point_linRelu (iblk0 V c 0 t) (iblk0 V c 1 t) (iblk0 V c 2 t) (iblk0 V c 4 t) (iblk0 V c 3 t)
    (V c main_v24) (V c main_arg0) (V c main_arg2) (V c main_arg4) (V c main_v25) p ⟨t.val * 5000 + p.val, hr⟩ q
    ?_ ?_ ?_ ?_ ?_).trans ?_
  · intro k
    show V c main_v24 (((cfg0.win 0).blk t).view.emb (ix2 p k)) = V c main_v24 (ix2 ⟨t.val * 5000 + p.val, hr⟩ k)
    exact congrArg (V c main_v24) (funext fun a => Fin.ext (by
      match a with
      | ⟨0, _⟩ => show win0_0.index t (0 : Fin 2) * 5000 + 1 * p.val = t.val * 5000 + p.val; omega
      | ⟨1, _⟩ => show win0_0.index t (1 : Fin 2) * 128 + 1 * k.val = k.val; omega))
  · intro k
    show V c main_arg0 (((cfg0.win 1).blk t).view.emb (ix2 p k)) = V c main_arg0 (ix2 ⟨t.val * 5000 + p.val, hr⟩ k)
    exact congrArg (V c main_arg0) (funext fun a => Fin.ext (by
      match a with
      | ⟨0, _⟩ => show win0_1.index t (0 : Fin 2) * 5000 + 1 * p.val = t.val * 5000 + p.val; omega
      | ⟨1, _⟩ => show win0_1.index t (1 : Fin 2) * 128 + 1 * k.val = k.val; omega))
  · funext y
    show V c main_arg2 (((cfg0.win 2).blk t).view.emb y) = V c main_arg2 y
    exact congrArg (V c main_arg2) (funext fun a => Fin.ext (by
      match a with
      | ⟨0, _⟩ => show win0_2.index t (0 : Fin 2) * 128 + 1 * (y 0).val = (y 0).val; omega
      | ⟨1, _⟩ => show win0_2.index t (1 : Fin 2) * 128 + 1 * (y 1).val = (y 1).val; omega))
  · funext y
    show V c main_arg4 (((cfg0.win 4).blk t).view.emb y) = V c main_arg4 y
    exact congrArg (V c main_arg4) (funext fun a => Fin.ext (by
      match a with
      | ⟨0, _⟩ => show win0_4.index t (0 : Fin 2) * 128 + 1 * (y 0).val = (y 0).val; omega
      | ⟨1, _⟩ => show win0_4.index t (1 : Fin 2) * 128 + 1 * (y 1).val = (y 1).val; omega))
  · funext y
    show V c main_v25 (((cfg0.win 3).blk t).view.emb y) = V c main_v25 y
    exact congrArg (V c main_v25) (funext fun a => Fin.ext (by
      match a with
      | ⟨0, _⟩ => show win0_3.index t (0 : Fin 2) * 1 + 1 * (y 0).val = (y 0).val; omega
      | ⟨1, _⟩ => show win0_3.index t (1 : Fin 2) * 128 + 1 * (y 1).val = (y 1).val; omega))
  · show G V c (ix2 ⟨t.val * 5000 + p.val, hr⟩ q) = G V c (((cfg0.win 5).blk t).view.emb (ix2 p q))
    exact congrArg (G V c) (funext fun a => Fin.ext (by
      match a with
      | ⟨0, _⟩ => show t.val * 5000 + p.val = win0_5.index t (0 : Fin 2) * 5000 + 1 * p.val; omega
      | ⟨1, _⟩ => show q.val = win0_5.index t (1 : Fin 2) * 128 + 1 * q.val; omega))

/-- An index of the output array is in point `t`'s block iff each coordinate is in the block's range on its axis. -/
theorem mem_blk (t : Fin cfg0.N) (i : S50000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v26).slice (win0_5.rect t)).set ↔ _
  rw [View.set_slice_whole, Rect.mem_set_unit]
  exact Iff.rfl

/-- Every row lies in the block of the point `row / 5000`. -/
theorem cover (i : S50000x128.Idx) :
    ∃ t : Fin cfg0.N, (cfg0.win 5).flush t = true ∧ i ∈ ((cfg0.win 5).blk t).view.set := by
  have hi0 : (i 0).val < 50000 := (i 0).isLt
  have hi1 : (i 1).val < 128 := (i 1).isLt
  have hN : (i 0).val / 5000 < cfg0.N := lt_of_lt_of_eq (by omega : (i 0).val / 5000 < 10) N_0.symm
  refine ⟨⟨(i 0).val / 5000, hN⟩, flush0_5 _, ?_⟩
  obtain ⟨-, -, -, -, -, -, -, -, -, -, e50, e51⟩ := idx_facts ⟨(i 0).val / 5000, hN⟩
  rw [mem_blk]
  intro a
  match a with
  | ⟨0, _⟩ =>
    show win0_5.index ⟨(i 0).val / 5000, hN⟩ (0 : Fin 2) * 5000 ≤ (i 0).val ∧ (i 0).val < win0_5.index ⟨(i 0).val / 5000, hN⟩ (0 : Fin 2) * 5000 + 5000
    rw [e50]; show (i 0).val / 5000 * 5000 ≤ (i 0).val ∧ (i 0).val < (i 0).val / 5000 * 5000 + 5000; omega
  | ⟨1, _⟩ =>
    show win0_5.index ⟨(i 0).val / 5000, hN⟩ (1 : Fin 2) * 128 ≤ (i 1).val ∧ (i 1).val < win0_5.index ⟨(i 0).val / 5000, hN⟩ (1 : Fin 2) * 128 + 128
    rw [e51]; omega

/-- The output array after the call is the clamped layer of the arrays the call finds. -/
theorem arr (c : Dev nD) : (dat0 V c).arrAt 5 cfg0.N = G V c :=
  (dat0 V c).arrAt_eq_of_cover 5 (G V c) (fun t _ => flushed_eq V c t) cover

end Cert.KernelIdeal.Layer0

end
-- ==== Proof.Bridge.lean ====
/-
  The kernel program's host arithmetic between its calls, and why each layer it computes is the reference's layer.

  Both programs aggregate by the same host operations: the source indices wrapped into range, a gather of the source
  rows, a scatter-add onto the destination rows, and the in-degree as a scatter-add of ones clamped below by one.
  They differ in how the mean is taken: the kernel program multiplies the edge sums by the reciprocal
  `1 / max(deg, 1)`, computed once; the reference divides them by `max(deg, 1)`. The divisor is at least one, so the
  two are the same extended real whatever the edge sum (`Cert.Sage.mean_eq`). With the layer's three summands
  reordered (`Cert.SageNet.host_linRelu_mid`) a layer of the kernel program — the clamped layer of that mean, of the
  features, of the weights and of the bias held as one row — is the reference's layer of the same arguments.
  The reference's second layer is its first layer's function of the first layer's result, and its last layer the same
  without the clamp: both by unfolding.
-/
import proofs.«102059_j10797547782307_1_alg».proof.Proof.Gen.KernelIdeal
import proofs.«102059_j10797547782307_1_alg».proof.Proof.Gen.ReferenceIdeal.Read
import proofs.«102059_j10797547782307_1_alg».proof.Proof.Layer

noncomputable section

namespace Cert.KernelIdeal.HostVal

open Cert.KernelIdeal Cert.KernelIdeal.Facts₀ Cert.KernelIdeal.Facts
open Idealize.ShloMosaic Idealize.ShloMosaic.ValueIdx Cert.Sage Cert.SageNet
open Cert.ReferenceIdeal.Read (val_main_v22 val_main_v29 val_main_v55 val_main_v80)

/-- Integer and float array contents at the ideal instance. -/
abbrev I32 (S : Shape) := (⟨S, .i32⟩ : BufTy).Contents (Elt Ideal)
abbrev F32 (S : Shape) := (⟨S, .f32⟩ : BufTy).Contents (Elt Ideal)

/-- The source row of the edge list. -/
def srcOf (e : I32 S2x800000) : I32 S800000 :=
  shapeCast _ (extractStridedSlice S1x800000 ![0, 0] e slices_S2x800000_S1x800000_0_0) shapeCasts_S1x800000_S800000

/-- The destination row of the edge list. -/
def dstOf (e : I32 S2x800000) : I32 S800000 :=
  shapeCast _ (extractStridedSlice S1x800000 ![1, 0] e slices_S2x800000_S1x800000_1_0) shapeCasts_S1x800000_S800000

/-- The reciprocal of the in-degree clamped below by one: `1 / max(deg, 1)`, the degree a scatter-add of ones. -/
def invOf (dst : I32 S800000) : F32 S50000 :=
  Host.divf (F := Ideal) (broadcastInDim S50000 ![] bcast_S_S50000 (constant (F := Ideal) S_ .f32 0x3F800000#32))
    (maximumf (F := Ideal) (Host.scatterAdd (F := Ideal) scatter_S50000_S800000x1_S800000_n_0_0_1
        (broadcastInDim S50000 ![] bcast_S_S50000 (constant (F := Ideal) S_ .f32 0x00000000#32))
        (broadcastInDim S800000x1 ![0] bcast_S800000_S800000x1_0 dst)
        (broadcastInDim S800000 ![] bcast_S_S800000 (constant (F := Ideal) S_ .f32 0x3F800000#32)))
      (broadcastInDim S50000 ![] bcast_S_S50000 (constant (F := Ideal) S_ .f32 0x3F800000#32)))

/-- The neighbour means as the kernel program computes them: the source rows of `h` (indices wrapped into range)
    summed onto their destination rows, times the reciprocal `inv` spread along the rows. -/
def aggOf (src dst : I32 S800000) (inv : F32 S50000) (h : F32 S50000x128) : F32 S50000x128 :=
  mulf (F := Ideal) (Host.scatterAdd (F := Ideal) scatter_S50000x128_S800000x1_S800000x128_1_0_0_1
      (broadcastInDim S50000x128 ![] bcast_S_S50000x128 (constant (F := Ideal) S_ .f32 0x00000000#32))
      (broadcastInDim S800000x1 ![0] bcast_S800000_S800000x1_0 dst)
      (Host.gather gather_S50000x128_S800000x1_S800000x128_1_0_n_n_0_1_1128 h
        (broadcastInDim S800000x1 ![0] bcast_S800000_S800000x1_0
          (select (cmpi .slt src (broadcastInDim S800000 ![] bcast_S_S800000 (constantI S_ 32 0#32)))
            (addi src (broadcastInDim S800000 ![] bcast_S_S800000 (constantI S_ 32 50000#32))) src))))
    (broadcastInDim S50000x128 ![0, 1] bcast_S50000x1_S50000x128_0_1
      (broadcastInDim S50000x1 ![0] bcast_S50000_S50000x1_0 inv))

/-- The kernel program's means are the reference's: the edge sums times `1 / max(deg, 1)` are the edge sums divided
    by `max(deg, 1)`. -/
theorem agg_eq (e : I32 S2x800000) (h : F32 S50000x128) :
    aggOf (srcOf e) (dstOf e) (invOf (dstOf e)) h = val_main_v22 (F := Ideal) h e := by
  have h1 := mean_eq (M := 50000) (K := 128) ![] bcast_S_S50000 ![0] bcast_S50000_S50000x1_0 rfl ![0, 1]
    bcast_S50000x1_S50000x128_0_1 rfl
    (Host.scatterAdd (F := Ideal) scatter_S50000x128_S800000x1_S800000x128_1_0_0_1
      (broadcastInDim S50000x128 ![] bcast_S_S50000x128 (constant (F := Ideal) S_ .f32 0x00000000#32))
      (broadcastInDim S800000x1 ![0] bcast_S800000_S800000x1_0 (dstOf e))
      (Host.gather gather_S50000x128_S800000x1_S800000x128_1_0_n_n_0_1_1128 h
        (broadcastInDim S800000x1 ![0] bcast_S800000_S800000x1_0
          (select (cmpi .slt (srcOf e) (broadcastInDim S800000 ![] bcast_S_S800000 (constantI S_ 32 0#32)))
            (addi (srcOf e) (broadcastInDim S800000 ![] bcast_S_S800000 (constantI S_ 32 50000#32))) (srcOf e)))))
    (Host.scatterAdd (F := Ideal) scatter_S50000_S800000x1_S800000_n_0_0_1
        (broadcastInDim S50000 ![] bcast_S_S50000 (constant (F := Ideal) S_ .f32 0x00000000#32))
        (broadcastInDim S800000x1 ![0] bcast_S800000_S800000x1_0 (dstOf e))
        (broadcastInDim S800000 ![] bcast_S_S800000 (constant (F := Ideal) S_ .f32 0x3F800000#32)))
  unfold aggOf invOf
  refine h1.trans ?_
  rfl

/-- The bias held as one row reads, at column `q`, the bias at `q`. -/
theorem bias_row128 (b : F32 S128) :
    (fun q : Fin 128 => (shapeCast S1x128 b shapeCasts_S128_S1x128 : F32 S1x128) (ix2 (0 : Fin 1) q)) = fun q => b (ix1 q) :=
  funext fun q => shapeCast_a_1a_apply b _ 0 q

theorem bias_row64 (b : F32 S64) :
    (fun q : Fin 64 => (shapeCast S1x64 b shapeCasts_S64_S1x64 : F32 S1x64) (ix2 (0 : Fin 1) q)) = fun q => b (ix1 q) :=
  funext fun q => shapeCast_a_1a_apply b _ 0 q

/-- A clamped layer of the kernel program is the reference's first-layer function of the same arguments. -/
theorem layer_relu (h : F32 S50000x128) (e : I32 S2x800000) (Wl : F32 S128x128) (b : F32 S128) (Wr : F32 S128x128) :
    linRelu (aggOf (srcOf e) (dstOf e) (invOf (dstOf e)) h) h Wl Wr
        (fun q => (shapeCast S1x128 b shapeCasts_S128_S1x128 : F32 S1x128) (ix2 (0 : Fin 1) q))
      = val_main_v29 (F := Ideal) h e Wl b Wr := by
  rw [agg_eq, bias_row128]
  exact (host_linRelu_mid Cert.ReferenceIdeal.dot_S50000x128_S128x128_S50000x128_1_0_0_1_n_n rfl rfl rfl rfl rfl rfl
    ![1] _ rfl ![0, 1] _ rfl ![] _ (val_main_v22 (F := Ideal) h e) h Wl Wr b).symm

/-- The reference's last layer as a function of the features it is applied to. -/
def lastR (h : F32 S50000x128) (e : I32 S2x800000) (Wl : F32 S128x64) (b : F32 S64) (Wr : F32 S128x64) : F32 S50000x64 :=
  addf (F := Ideal) (addf (F := Ideal) (Host.dotGeneral (F := Ideal) (φ₁ := .f32) (φ₂ := .f32) Cert.ReferenceIdeal.dot_S50000x128_S128x64_S50000x64_1_0_0_1_n_n none (val_main_v22 (F := Ideal) h e) Wl)
      (broadcastInDim S50000x64 ![0, 1] Cert.ReferenceIdeal.Gen.bcast_S1x64_S50000x64_0_1
        (broadcastInDim S1x64 ![1] Cert.ReferenceIdeal.Gen.bcast_S64_S1x64_1 b)))
    (Host.dotGeneral (F := Ideal) (φ₁ := .f32) (φ₂ := .f32) Cert.ReferenceIdeal.dot_S50000x128_S128x64_S50000x64_1_0_0_1_n_n none h Wr)

/-- The kernel program's last layer is the reference's. -/
theorem layer_last (h : F32 S50000x128) (e : I32 S2x800000) (Wl : F32 S128x64) (b : F32 S64) (Wr : F32 S128x64) :
    lin (aggOf (srcOf e) (dstOf e) (invOf (dstOf e)) h) h Wl Wr
        (fun q => (shapeCast S1x64 b shapeCasts_S64_S1x64 : F32 S1x64) (ix2 (0 : Fin 1) q))
      = lastR h e Wl b Wr := by
  rw [agg_eq, bias_row64]
  exact (host_lin_mid Cert.ReferenceIdeal.dot_S50000x128_S128x64_S50000x64_1_0_0_1_n_n rfl rfl rfl rfl rfl rfl
    ![1] _ rfl ![0, 1] _ rfl (val_main_v22 (F := Ideal) h e) h Wl Wr b).symm

/-- The reference's second layer is its first layer's function of the first layer's result. -/
theorem second_layer (x0 : F32 S50000x128) (x1 : I32 S2x800000) (x2 : F32 S128x128) (x3 : F32 S128) (x4 x5 : F32 S128x128)
    (x6 : F32 S128) (x7 : F32 S128x128) :
    val_main_v55 (F := Ideal) x0 x1 x2 x3 x4 x5 x6 x7
      = val_main_v29 (F := Ideal) (val_main_v29 (F := Ideal) x0 x1 x2 x3 x4) x1 x5 x6 x7 := rfl

/-- The reference's result is its last layer of the second layer's result. -/
theorem third_layer (x0 : F32 S50000x128) (x1 : I32 S2x800000) (x2 : F32 S128x128) (x3 : F32 S128) (x4 x5 : F32 S128x128)
    (x6 : F32 S128) (x7 : F32 S128x128) (x8 : F32 S128x64) (x9 : F32 S64) (x10 : F32 S128x64) :
    val_main_v80 (F := Ideal) x0 x1 x2 x3 x4 x5 x6 x7 x8 x9 x10
      = lastR (val_main_v55 (F := Ideal) x0 x1 x2 x3 x4 x5 x6 x7) x1 x8 x9 x10 := rfl

end Cert.KernelIdeal.HostVal

end
-- ==== Proof.KernelValue1.lean ====
/-
  The buffer contents at the first call's entry and exit, as functions of the launched arguments.

  Before the first call the host operations compute, from the edge list, the source and destination index vectors and
  the reciprocal clamped in-degree, from these and the node features the neighbour means, and the first bias as one
  row; they write no argument. The call then leaves its output array at the clamped layer of the arrays it found —
  which is the reference's first layer of the launched arguments — and every buffer that is not one of its arrays
  as it was.
-/
import proofs.«102059_j10797547782307_1_alg».proof.Proof.Gen.KernelIdeal.Frame
import proofs.«102059_j10797547782307_1_alg».proof.Proof.KernelRegion0
import proofs.«102059_j10797547782307_1_alg».proof.Proof.Bridge
import Idealize.ShloMosaic.Lib.StableHlo.Run

set_option maxRecDepth 16384

noncomputable section

namespace Cert.KernelIdeal.Value1

open Cert.KernelIdeal Cert.KernelIdeal.Gen Cert.KernelIdeal.HostVal
open Idealize.ShloMosaic Idealize.ShloMosaic.TcCoe Idealize.SL.Sem Idealize.ShloMosaic.StableHlo
open Idealize.ShloMosaic.ValueIdx Cert.Sage Cert.SageNet
open Cert.ReferenceIdeal.Read (val_main_v22 val_main_v29 val_main_v55 val_main_v80)

variable (m : (ℓ : Loc nD τ sig) → Buf (Elt Ideal) ℓ) (ρ : Dev nD → PrngReg) (c : Dev nD)

/-- A buffer no operation of a host stretch writes is after the stretch what it was before. -/
macro "host_keeps " ops:ident b:ident : tactic => `(tactic|
  exact StableHlo.after_of_forall_not_mem (b := Proc.devRef .tc $b) _ _ (List.forall_iff_forall_mem.mp (by
    simp only [$ops:ident, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide))))

/-! ## At the first call's entry -/

theorem w1_v1 : W1 m ρ c (Proc.devRef .tc main_v1) = srcOf (m ((c : Thread nD τ).loc main_arg1)) := by
  show StableHlo.after hostOps0 (W0 m ρ c) (Proc.devRef .tc main_v1) = _
  dsimp only [hostOps0]; after_results_simp; rfl

theorem w1_v3 : W1 m ρ c (Proc.devRef .tc main_v3) = dstOf (m ((c : Thread nD τ).loc main_arg1)) := by
  show StableHlo.after hostOps0 (W0 m ρ c) (Proc.devRef .tc main_v3) = _
  dsimp only [hostOps0]; after_results_simp; rfl

theorem w1_v11 : W1 m ρ c (Proc.devRef .tc main_v11) = invOf (dstOf (m ((c : Thread nD τ).loc main_arg1))) := by
  show StableHlo.after hostOps0 (W0 m ρ c) (Proc.devRef .tc main_v11) = _
  dsimp only [hostOps0]; after_results_simp; rfl

theorem w1_v24 : W1 m ρ c (Proc.devRef .tc main_v24)
    = aggOf (srcOf (m ((c : Thread nD τ).loc main_arg1))) (dstOf (m ((c : Thread nD τ).loc main_arg1)))
        (invOf (dstOf (m ((c : Thread nD τ).loc main_arg1)))) (m ((c : Thread nD τ).loc main_arg0)) := by
  show StableHlo.after hostOps0 (W0 m ρ c) (Proc.devRef .tc main_v24) = _
  dsimp only [hostOps0]; after_results_simp; rfl

theorem w1_v25 : W1 m ρ c (Proc.devRef .tc main_v25)
    = (shapeCast S1x128 (m ((c : Thread nD τ).loc main_arg3)) Facts₀.shapeCasts_S128_S1x128 : F32 S1x128) := by
  show StableHlo.after hostOps0 (W0 m ρ c) (Proc.devRef .tc main_v25) = _
  dsimp only [hostOps0]; after_results_simp; rfl

theorem w1_arg0 : W1 m ρ c (Proc.devRef .tc main_arg0) = m ((c : Thread nD τ).loc main_arg0) := by
  show StableHlo.after hostOps0 (W0 m ρ c) (Proc.devRef .tc main_arg0) = W0 m ρ c (Proc.devRef .tc main_arg0)
  host_keeps hostOps0 main_arg0
theorem w1_arg2 : W1 m ρ c (Proc.devRef .tc main_arg2) = m ((c : Thread nD τ).loc main_arg2) := by
  show StableHlo.after hostOps0 (W0 m ρ c) (Proc.devRef .tc main_arg2) = W0 m ρ c (Proc.devRef .tc main_arg2)
  host_keeps hostOps0 main_arg2
theorem w1_arg4 : W1 m ρ c (Proc.devRef .tc main_arg4) = m ((c : Thread nD τ).loc main_arg4) := by
  show StableHlo.after hostOps0 (W0 m ρ c) (Proc.devRef .tc main_arg4) = W0 m ρ c (Proc.devRef .tc main_arg4)
  host_keeps hostOps0 main_arg4
theorem w1_arg5 : W1 m ρ c (Proc.devRef .tc main_arg5) = m ((c : Thread nD τ).loc main_arg5) := by
  show StableHlo.after hostOps0 (W0 m ρ c) (Proc.devRef .tc main_arg5) = W0 m ρ c (Proc.devRef .tc main_arg5)
  host_keeps hostOps0 main_arg5
theorem w1_arg6 : W1 m ρ c (Proc.devRef .tc main_arg6) = m ((c : Thread nD τ).loc main_arg6) := by
  show StableHlo.after hostOps0 (W0 m ρ c) (Proc.devRef .tc main_arg6) = W0 m ρ c (Proc.devRef .tc main_arg6)
  host_keeps hostOps0 main_arg6
theorem w1_arg7 : W1 m ρ c (Proc.devRef .tc main_arg7) = m ((c : Thread nD τ).loc main_arg7) := by
  show StableHlo.after hostOps0 (W0 m ρ c) (Proc.devRef .tc main_arg7) = W0 m ρ c (Proc.devRef .tc main_arg7)
  host_keeps hostOps0 main_arg7
theorem w1_arg8 : W1 m ρ c (Proc.devRef .tc main_arg8) = m ((c : Thread nD τ).loc main_arg8) := by
  show StableHlo.after hostOps0 (W0 m ρ c) (Proc.devRef .tc main_arg8) = W0 m ρ c (Proc.devRef .tc main_arg8)
  host_keeps hostOps0 main_arg8
theorem w1_arg9 : W1 m ρ c (Proc.devRef .tc main_arg9) = m ((c : Thread nD τ).loc main_arg9) := by
  show StableHlo.after hostOps0 (W0 m ρ c) (Proc.devRef .tc main_arg9) = W0 m ρ c (Proc.devRef .tc main_arg9)
  host_keeps hostOps0 main_arg9
theorem w1_arg10 : W1 m ρ c (Proc.devRef .tc main_arg10) = m ((c : Thread nD τ).loc main_arg10) := by
  show StableHlo.after hostOps0 (W0 m ρ c) (Proc.devRef .tc main_arg10) = W0 m ρ c (Proc.devRef .tc main_arg10)
  host_keeps hostOps0 main_arg10

/-! ## At the first call's exit -/

/-- The first call's output is the reference's first layer of the launched arguments. -/
theorem w2_v26 : W2 m ρ c (Proc.devRef .tc main_v26)
    = val_main_v29 (F := Ideal) (m ((c : Thread nD τ).loc main_arg0)) (m ((c : Thread nD τ).loc main_arg1))
        (m ((c : Thread nD τ).loc main_arg2)) (m ((c : Thread nD τ).loc main_arg3)) (m ((c : Thread nD τ).loc main_arg4)) := by
  refine (W2_arr m ρ c 5).trans ((Cert.KernelIdeal.Layer0.arr (V1 m ρ) c).trans ?_)
  show linRelu (W1 m ρ c (Proc.devRef .tc main_v24)) (W1 m ρ c (Proc.devRef .tc main_arg0)) (W1 m ρ c (Proc.devRef .tc main_arg2))
    (W1 m ρ c (Proc.devRef .tc main_arg4)) (fun q => W1 m ρ c (Proc.devRef .tc main_v25) (ix2 (0 : Fin 1) q)) = _
  rw [w1_v24, w1_arg0, w1_arg2, w1_arg4, w1_v25]
  exact layer_relu _ _ _ _ _

/-- What the later stretches and calls read is not among the first call's arrays. -/
theorem w2_v1 : W2 m ρ c (Proc.devRef .tc main_v1) = srcOf (m ((c : Thread nD τ).loc main_arg1)) :=
  (W2_of_ne m ρ c main_v1 (by decide)).trans (w1_v1 m ρ c)
theorem w2_v3 : W2 m ρ c (Proc.devRef .tc main_v3) = dstOf (m ((c : Thread nD τ).loc main_arg1)) :=
  (W2_of_ne m ρ c main_v3 (by decide)).trans (w1_v3 m ρ c)
theorem w2_v11 : W2 m ρ c (Proc.devRef .tc main_v11) = invOf (dstOf (m ((c : Thread nD τ).loc main_arg1))) :=
  (W2_of_ne m ρ c main_v11 (by decide)).trans (w1_v11 m ρ c)
theorem w2_arg5 : W2 m ρ c (Proc.devRef .tc main_arg5) = m ((c : Thread nD τ).loc main_arg5) :=
  (W2_of_ne m ρ c main_arg5 (by decide)).trans (w1_arg5 m ρ c)
theorem w2_arg6 : W2 m ρ c (Proc.devRef .tc main_arg6) = m ((c : Thread nD τ).loc main_arg6) :=
  (W2_of_ne m ρ c main_arg6 (by decide)).trans (w1_arg6 m ρ c)
theorem w2_arg7 : W2 m ρ c (Proc.devRef .tc main_arg7) = m ((c : Thread nD τ).loc main_arg7) :=
  (W2_of_ne m ρ c main_arg7 (by decide)).trans (w1_arg7 m ρ c)
theorem w2_arg8 : W2 m ρ c (Proc.devRef .tc main_arg8) = m ((c : Thread nD τ).loc main_arg8) :=
  (W2_of_ne m ρ c main_arg8 (by decide)).trans (w1_arg8 m ρ c)
theorem w2_arg9 : W2 m ρ c (Proc.devRef .tc main_arg9) = m ((c : Thread nD τ).loc main_arg9) :=
  (W2_of_ne m ρ c main_arg9 (by decide)).trans (w1_arg9 m ρ c)
theorem w2_arg10 : W2 m ρ c (Proc.devRef .tc main_arg10) = m ((c : Thread nD τ).loc main_arg10) :=
  (W2_of_ne m ρ c main_arg10 (by decide)).trans (w1_arg10 m ρ c)

end Cert.KernelIdeal.Value1

end
-- ==== Proof.KernelRegion1.lean ====
/-
  The second call's output array as one function of the arrays the call finds.

  The call runs ten grid points; point `t` stages rows `5000·t … 5000·t + 4999` of the neighbour means and of the node
  features, the two weight matrices and the bias row whole, and writes back rows `5000·t …` of the output. What it
  writes is the body's value on the staged blocks: the clamped layer of the blocks. An entry of the layer reads one row of
  the means and of the features, so the block written at point `t` is block `t` of the clamped layer of the WHOLE arrays;
  the ten blocks tile the 50000 rows, so the output array ends as that layer.
-/
import proofs.«102059_j10797547782307_1_alg».proof.Proof.Gen.KernelIdeal.Frame
import proofs.«102059_j10797547782307_1_alg».proof.Proof.Layer
import Idealize.ShloMosaic.Lib.Pipeline.Value

set_option maxRecDepth 16384

noncomputable section

namespace Cert.KernelIdeal.Layer1

open Cert.KernelIdeal Cert.KernelIdeal.Gen Idealize.ShloMosaic Idealize.ShloMosaic.TcCoe Idealize.SL.Sem
open Idealize.ShloMosaic.ValueIdx Cert.Sage Cert.SageNet
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's value on its staged blocks is the clamped layer of the blocks. -/
theorem pay_eq (v0 v3 : FVec Ideal S5000x128 .f32) (v5 v7 : FVec Ideal S128x128 .f32) (v12 : FVec Ideal S1x128 .f32) :
    k1_pay1 (F := Ideal) v0 v3 v5 v7 v12 = linRelu v0 v3 v5 v7 (fun q => v12 (ix2 (0 : Fin 1) q)) := by
  unfold k1_pay1
  simp only [shapeCast_self]
  exact block_linRelu dot_S5000x128_S128x128_S5000x128_1_0_0_1_n_n rfl rfl rfl rfl rfl rfl _ _ v0 v3 v5 v7 v12

/-- The clamped layer of the whole arrays the call finds. -/
def G (c : Dev nD) : S50000x128.Idx → EReal :=
  linRelu (V c main_v39) (V c main_v26) (V c main_arg5) (V c main_arg7) (fun q => V c main_v40 (ix2 (0 : Fin 1) q))

/-- The printed index maps over the grid: the row windows move with the point, the whole windows stay. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- What point `t` writes back is block `t` of the layer of the whole arrays. -/
theorem flushed_eq (c : Dev nD) (t : Fin cfg1.N) :
    (dat1 V c).flushed 5 t = ((cfg1.win 5).blk t).view.read (Elt Ideal) (G V c) := by
  show (cfg1.win 5).cut (grid1.coords t) ((dat1 V c).after 5 t) = _
  rw [after1_5]
  unfold out1_5
  rw [View.canon_unit_zero hz]
  simp only [View.ld_unit_zero (S := S5000x128) hz, View.ld_unit_zero (S := S128x128) hz, View.ld_unit_zero (S := S1x128) hz]
  rw [pay_eq]
  obtain ⟨e00, e01, e10, e11, e20, e21, e30, e31, e40, e41, e50, e51⟩ := idx_facts t
  have ht : t.val < 10 := lt_of_lt_of_eq t.isLt N_1
  funext j
  obtain ⟨p, q, rfl⟩ : ∃ (p : Fin 5000) (q : Fin 128), j = (ix2 p q : S5000x128.Idx) :=
    ⟨j 0, j 1, eq_ix2 (n0 := 5000) (n1 := 128) j⟩
  have hr : t.val * 5000 + p.val < 50000 := by have := p.isLt; omega
  refine (point_linRelu (iblk1 V c 0 t) (iblk1 V c 1 t) (iblk1 V c 2 t) (iblk1 V c 4 t) (iblk1 V c 3 t)
    (V c main_v39) (V c main_v26) (V c main_arg5) (V c main_arg7) (V c main_v40) p ⟨t.val * 5000 + p.val, hr⟩ q
    ?_ ?_ ?_ ?_ ?_).trans ?_
  · intro k
    show V c main_v39 (((cfg1.win 0).blk t).view.emb (ix2 p k)) = V c main_v39 (ix2 ⟨t.val * 5000 + p.val, hr⟩ k)
    exact congrArg (V c main_v39) (funext fun a => Fin.ext (by
      match a with
      | ⟨0, _⟩ => show win1_0.index t (0 : Fin 2) * 5000 + 1 * p.val = t.val * 5000 + p.val; omega
      | ⟨1, _⟩ => show win1_0.index t (1 : Fin 2) * 128 + 1 * k.val = k.val; omega))
  · intro k
    show V c main_v26 (((cfg1.win 1).blk t).view.emb (ix2 p k)) = V c main_v26 (ix2 ⟨t.val * 5000 + p.val, hr⟩ k)
    exact congrArg (V c main_v26) (funext fun a => Fin.ext (by
      match a with
      | ⟨0, _⟩ => show win1_1.index t (0 : Fin 2) * 5000 + 1 * p.val = t.val * 5000 + p.val; omega
      | ⟨1, _⟩ => show win1_1.index t (1 : Fin 2) * 128 + 1 * k.val = k.val; omega))
  · funext y
    show V c main_arg5 (((cfg1.win 2).blk t).view.emb y) = V c main_arg5 y
    exact congrArg (V c main_arg5) (funext fun a => Fin.ext (by
      match a with
      | ⟨0, _⟩ => show win1_2.index t (0 : Fin 2) * 128 + 1 * (y 0).val = (y 0).val; omega
      | ⟨1, _⟩ => show win1_2.index t (1 : Fin 2) * 128 + 1 * (y 1).val = (y 1).val; omega))
  · funext y
    show V c main_arg7 (((cfg1.win 4).blk t).view.emb y) = V c main_arg7 y
    exact congrArg (V c main_arg7) (funext fun a => Fin.ext (by
      match a with
      | ⟨0, _⟩ => show win1_4.index t (0 : Fin 2) * 128 + 1 * (y 0).val = (y 0).val; omega
      | ⟨1, _⟩ => show win1_4.index t (1 : Fin 2) * 128 + 1 * (y 1).val = (y 1).val; omega))
  · funext y
    show V c main_v40 (((cfg1.win 3).blk t).view.emb y) = V c main_v40 y
    exact congrArg (V c main_v40) (funext fun a => Fin.ext (by
      match a with
      | ⟨0, _⟩ => show win1_3.index t (0 : Fin 2) * 1 + 1 * (y 0).val = (y 0).val; omega
      | ⟨1, _⟩ => show win1_3.index t (1 : Fin 2) * 128 + 1 * (y 1).val = (y 1).val; omega))
  · show G V c (ix2 ⟨t.val * 5000 + p.val, hr⟩ q) = G V c (((cfg1.win 5).blk t).view.emb (ix2 p q))
    exact congrArg (G V c) (funext fun a => Fin.ext (by
      match a with
      | ⟨0, _⟩ => show t.val * 5000 + p.val = win1_5.index t (0 : Fin 2) * 5000 + 1 * p.val; omega
      | ⟨1, _⟩ => show q.val = win1_5.index t (1 : Fin 2) * 128 + 1 * q.val; omega))

/-- An index of the output array is in point `t`'s block iff each coordinate is in the block's range on its axis. -/
theorem mem_blk (t : Fin cfg1.N) (i : S50000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v41).slice (win1_5.rect t)).set ↔ _
  rw [View.set_slice_whole, Rect.mem_set_unit]
  exact Iff.rfl

/-- Every row lies in the block of the point `row / 5000`. -/
theorem cover (i : S50000x128.Idx) :
    ∃ t : Fin cfg1.N, (cfg1.win 5).flush t = true ∧ i ∈ ((cfg1.win 5).blk t).view.set := by
  have hi0 : (i 0).val < 50000 := (i 0).isLt
  have hi1 : (i 1).val < 128 := (i 1).isLt
  have hN : (i 0).val / 5000 < cfg1.N := lt_of_lt_of_eq (by omega : (i 0).val / 5000 < 10) N_1.symm
  refine ⟨⟨(i 0).val / 5000, hN⟩, flush1_5 _, ?_⟩
  obtain ⟨-, -, -, -, -, -, -, -, -, -, e50, e51⟩ := idx_facts ⟨(i 0).val / 5000, hN⟩
  rw [mem_blk]
  intro a
  match a with
  | ⟨0, _⟩ =>
    show win1_5.index ⟨(i 0).val / 5000, hN⟩ (0 : Fin 2) * 5000 ≤ (i 0).val ∧ (i 0).val < win1_5.index ⟨(i 0).val / 5000, hN⟩ (0 : Fin 2) * 5000 + 5000
    rw [e50]; show (i 0).val / 5000 * 5000 ≤ (i 0).val ∧ (i 0).val < (i 0).val / 5000 * 5000 + 5000; omega
  | ⟨1, _⟩ =>
    show win1_5.index ⟨(i 0).val / 5000, hN⟩ (1 : Fin 2) * 128 ≤ (i 1).val ∧ (i 1).val < win1_5.index ⟨(i 0).val / 5000, hN⟩ (1 : Fin 2) * 128 + 128
    rw [e51]; omega

/-- The output array after the call is the clamped layer of the arrays the call finds. -/
theorem arr (c : Dev nD) : (dat1 V c).arrAt 5 cfg1.N = G V c :=
  (dat1 V c).arrAt_eq_of_cover 5 (G V c) (fun t _ => flushed_eq V c t) cover

end Cert.KernelIdeal.Layer1

end
-- ==== Proof.KernelValue2.lean ====
/-
  The buffer contents at the second call's entry and exit, as functions of the launched arguments.

  Between the first and the second call the host operations take the neighbour means of the first layer's result (the
  same index vectors, the same reciprocal clamped in-degree) and lay the second bias out as one row; they write neither
  the first layer's result nor an argument. The second call leaves its output array at the clamped layer of the arrays
  it found: the reference's first-layer function applied to the first layer's result, which is the reference's second
  layer of the launched arguments.
-/
import proofs.«102059_j10797547782307_1_alg».proof.Proof.KernelValue1
import proofs.«102059_j10797547782307_1_alg».proof.Proof.KernelRegion1

set_option maxRecDepth 16384

noncomputable section

namespace Cert.KernelIdeal.Value2

open Cert.KernelIdeal Cert.KernelIdeal.Gen Cert.KernelIdeal.HostVal
open Cert.KernelIdeal.Value1
open Idealize.ShloMosaic Idealize.ShloMosaic.TcCoe Idealize.SL.Sem Idealize.ShloMosaic.StableHlo
open Idealize.ShloMosaic.ValueIdx Cert.Sage Cert.SageNet
open Cert.ReferenceIdeal.Read (val_main_v22 val_main_v29 val_main_v55 val_main_v80)

variable (m : (ℓ : Loc nD τ sig) → Buf (Elt Ideal) ℓ) (ρ : Dev nD → PrngReg) (c : Dev nD)

/-- The first layer's result, as the reference spells it. -/
abbrev H1 : F32 S50000x128 :=
  val_main_v29 (F := Ideal) (m ((c : Thread nD τ).loc main_arg0)) (m ((c : Thread nD τ).loc main_arg1))
    (m ((c : Thread nD τ).loc main_arg2)) (m ((c : Thread nD τ).loc main_arg3)) (m ((c : Thread nD τ).loc main_arg4))

/-! ## At the second call's entry -/

theorem w3_v39 : W3 m ρ c (Proc.devRef .tc main_v39)
    = aggOf (srcOf (m ((c : Thread nD τ).loc main_arg1))) (dstOf (m ((c : Thread nD τ).loc main_arg1)))
        (invOf (dstOf (m ((c : Thread nD τ).loc main_arg1)))) (H1 m c) := by
  show StableHlo.after hostOps1 (W2 m ρ c) (Proc.devRef .tc main_v39) = _
  dsimp only [hostOps1]; after_results_simp
  rw [w2_v1, w2_v3, w2_v11, w2_v26]
  rfl

theorem w3_v40 : W3 m ρ c (Proc.devRef .tc main_v40)
    = (shapeCast S1x128 (m ((c : Thread nD τ).loc main_arg6)) Facts₀.shapeCasts_S128_S1x128 : F32 S1x128) := by
  show StableHlo.after hostOps1 (W2 m ρ c) (Proc.devRef .tc main_v40) = _
  dsimp only [hostOps1]; after_results_simp
  rw [w2_arg6]
  rfl

theorem w3_v26 : W3 m ρ c (Proc.devRef .tc main_v26) = H1 m c :=
  (show StableHlo.after hostOps1 (W2 m ρ c) (Proc.devRef .tc main_v26) = W2 m ρ c (Proc.devRef .tc main_v26) by
    host_keeps hostOps1 main_v26).trans (w2_v26 m ρ c)
theorem w3_arg5 : W3 m ρ c (Proc.devRef .tc main_arg5) = m ((c : Thread nD τ).loc main_arg5) :=
  (show StableHlo.after hostOps1 (W2 m ρ c) (Proc.devRef .tc main_arg5) = W2 m ρ c (Proc.devRef .tc main_arg5) by
    host_keeps hostOps1 main_arg5).trans (w2_arg5 m ρ c)
theorem w3_arg7 : W3 m ρ c (Proc.devRef .tc main_arg7) = m ((c : Thread nD τ).loc main_arg7) :=
  (show StableHlo.after hostOps1 (W2 m ρ c) (Proc.devRef .tc main_arg7) = W2 m ρ c (Proc.devRef .tc main_arg7) by
    host_keeps hostOps1 main_arg7).trans (w2_arg7 m ρ c)
theorem w3_v1 : W3 m ρ c (Proc.devRef .tc main_v1) = srcOf (m ((c : Thread nD τ).loc main_arg1)) :=
  (show StableHlo.after hostOps1 (W2 m ρ c) (Proc.devRef .tc main_v1) = W2 m ρ c (Proc.devRef .tc main_v1) by
    host_keeps hostOps1 main_v1).trans (w2_v1 m ρ c)
theorem w3_v3 : W3 m ρ c (Proc.devRef .tc main_v3) = dstOf (m ((c : Thread nD τ).loc main_arg1)) :=
  (show StableHlo.after hostOps1 (W2 m ρ c) (Proc.devRef .tc main_v3) = W2 m ρ c (Proc.devRef .tc main_v3) by
    host_keeps hostOps1 main_v3).trans (w2_v3 m ρ c)
theorem w3_v11 : W3 m ρ c (Proc.devRef .tc main_v11) = invOf (dstOf (m ((c : Thread nD τ).loc main_arg1))) :=
  (show StableHlo.after hostOps1 (W2 m ρ c) (Proc.devRef .tc main_v11) = W2 m ρ c (Proc.devRef .tc main_v11) by
    host_keeps hostOps1 main_v11).trans (w2_v11 m ρ c)
theorem w3_arg8 : W3 m ρ c (Proc.devRef .tc main_arg8) = m ((c : Thread nD τ).loc main_arg8) :=
  (show StableHlo.after hostOps1 (W2 m ρ c) (Proc.devRef .tc main_arg8) = W2 m ρ c (Proc.devRef .tc main_arg8) by
    host_keeps hostOps1 main_arg8).trans (w2_arg8 m ρ c)
theorem w3_arg9 : W3 m ρ c (Proc.devRef .tc main_arg9) = m ((c : Thread nD τ).loc main_arg9) :=
  (show StableHlo.after hostOps1 (W2 m ρ c) (Proc.devRef .tc main_arg9) = W2 m ρ c (Proc.devRef .tc main_arg9) by
    host_keeps hostOps1 main_arg9).trans (w2_arg9 m ρ c)
theorem w3_arg10 : W3 m ρ c (Proc.devRef .tc main_arg10) = m ((c : Thread nD τ).loc main_arg10) :=
  (show StableHlo.after hostOps1 (W2 m ρ c) (Proc.devRef .tc main_arg10) = W2 m ρ c (Proc.devRef .tc main_arg10) by
    host_keeps hostOps1 main_arg10).trans (w2_arg10 m ρ c)

/-! ## At the second call's exit -/

/-- The second call's output is the reference's second layer of the launched arguments. -/
theorem w4_v41 : W4 m ρ c (Proc.devRef .tc main_v41)
    = val_main_v55 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7)) := by
  refine (W4_arr m ρ c 5).trans ((Cert.KernelIdeal.Layer1.arr (V3 m ρ) c).trans ?_)
  show linRelu (W3 m ρ c (Proc.devRef .tc main_v39)) (W3 m ρ c (Proc.devRef .tc main_v26)) (W3 m ρ c (Proc.devRef .tc main_arg5))
    (W3 m ρ c (Proc.devRef .tc main_arg7)) (fun q => W3 m ρ c (Proc.devRef .tc main_v40) (ix2 (0 : Fin 1) q)) = _
  rw [w3_v39, w3_v26, w3_arg5, w3_arg7, w3_v40]
  exact (layer_relu _ _ _ _ _).trans (second_layer _ _ _ _ _ _ _ _).symm

/-- What the last stretch and call read is not among the second call's arrays. -/
theorem w4_v1 : W4 m ρ c (Proc.devRef .tc main_v1) = srcOf (m ((c : Thread nD τ).loc main_arg1)) :=
  (W4_of_ne m ρ c main_v1 (by decide)).trans (w3_v1 m ρ c)
theorem w4_v3 : W4 m ρ c (Proc.devRef .tc main_v3) = dstOf (m ((c : Thread nD τ).loc main_arg1)) :=
  (W4_of_ne m ρ c main_v3 (by decide)).trans (w3_v3 m ρ c)
theorem w4_v11 : W4 m ρ c (Proc.devRef .tc main_v11) = invOf (dstOf (m ((c : Thread nD τ).loc main_arg1))) :=
  (W4_of_ne m ρ c main_v11 (by decide)).trans (w3_v11 m ρ c)
theorem w4_arg8 : W4 m ρ c (Proc.devRef .tc main_arg8) = m ((c : Thread nD τ).loc main_arg8) :=
  (W4_of_ne m ρ c main_arg8 (by decide)).trans (w3_arg8 m ρ c)
theorem w4_arg9 : W4 m ρ c (Proc.devRef .tc main_arg9) = m ((c : Thread nD τ).loc main_arg9) :=
  (W4_of_ne m ρ c main_arg9 (by decide)).trans (w3_arg9 m ρ c)
theorem w4_arg10 : W4 m ρ c (Proc.devRef .tc main_arg10) = m ((c : Thread nD τ).loc main_arg10) :=
  (W4_of_ne m ρ c main_arg10 (by decide)).trans (w3_arg10 m ρ c)

end Cert.KernelIdeal.Value2

end
-- ==== Proof.KernelRegion2.lean ====
/-
  The third call's output array as one function of the arrays the call finds.

  The call runs ten grid points; point `t` stages rows `5000·t … 5000·t + 4999` of the neighbour means and of the node
  features, the two weight matrices and the bias row whole, and writes back rows `5000·t …` of the output. What it
  writes is the body's value on the staged blocks: the layer of the blocks, not clamped here. An entry of the layer reads one row of
  the means and of the features, so the block written at point `t` is block `t` of the layer of the WHOLE arrays;
  the ten blocks tile the 50000 rows, so the output array ends as that layer.
-/
import proofs.«102059_j10797547782307_1_alg».proof.Proof.Gen.KernelIdeal.Frame
import proofs.«102059_j10797547782307_1_alg».proof.Proof.Layer
import Idealize.ShloMosaic.Lib.Pipeline.Value

set_option maxRecDepth 16384

noncomputable section

namespace Cert.KernelIdeal.Layer2

open Cert.KernelIdeal Cert.KernelIdeal.Gen Idealize.ShloMosaic Idealize.ShloMosaic.TcCoe Idealize.SL.Sem
open Idealize.ShloMosaic.ValueIdx Cert.Sage Cert.SageNet
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's value on its staged blocks is the layer of the blocks. -/
theorem pay_eq (v0 v3 : FVec Ideal S5000x128 .f32) (v5 v7 : FVec Ideal S128x64 .f32) (v12 : FVec Ideal S1x64 .f32) :
    k2_pay1 (F := Ideal) v0 v3 v5 v7 v12 = lin v0 v3 v5 v7 (fun q => v12 (ix2 (0 : Fin 1) q)) := by
  unfold k2_pay1
  simp only [shapeCast_self]
  exact block_lin dot_S5000x128_S128x64_S5000x64_1_0_0_1_n_n rfl rfl rfl rfl rfl rfl _ _ v0 v3 v5 v7 v12

/-- The layer of the whole arrays the call finds. -/
def G (c : Dev nD) : S50000x64.Idx → EReal :=
  lin (V c main_v54) (V c main_v41) (V c main_arg8) (V c main_arg10) (fun q => V c main_v55 (ix2 (0 : Fin 1) q))

/-- The printed index maps over the grid: the row windows move with the point, the whole windows stay. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- What point `t` writes back is block `t` of the layer of the whole arrays. -/
theorem flushed_eq (c : Dev nD) (t : Fin cfg2.N) :
    (dat2 V c).flushed 5 t = ((cfg2.win 5).blk t).view.read (Elt Ideal) (G V c) := by
  show (cfg2.win 5).cut (grid2.coords t) ((dat2 V c).after 5 t) = _
  rw [after2_5]
  unfold out2_5
  rw [View.canon_unit_zero hz]
  simp only [View.ld_unit_zero (S := S5000x128) hz, View.ld_unit_zero (S := S128x64) hz, View.ld_unit_zero (S := S1x64) hz]
  rw [pay_eq]
  obtain ⟨e00, e01, e10, e11, e20, e21, e30, e31, e40, e41, e50, e51⟩ := idx_facts t
  have ht : t.val < 10 := lt_of_lt_of_eq t.isLt N_2
  funext j
  obtain ⟨p, q, rfl⟩ : ∃ (p : Fin 5000) (q : Fin 64), j = (ix2 p q : S5000x64.Idx) :=
    ⟨j 0, j 1, eq_ix2 (n0 := 5000) (n1 := 64) j⟩
  have hr : t.val * 5000 + p.val < 50000 := by have := p.isLt; omega
  refine (point_lin (iblk2 V c 0 t) (iblk2 V c 1 t) (iblk2 V c 2 t) (iblk2 V c 4 t) (iblk2 V c 3 t)
    (V c main_v54) (V c main_v41) (V c main_arg8) (V c main_arg10) (V c main_v55) p ⟨t.val * 5000 + p.val, hr⟩ q
    ?_ ?_ ?_ ?_ ?_).trans ?_
  · intro k
    show V c main_v54 (((cfg2.win 0).blk t).view.emb (ix2 p k)) = V c main_v54 (ix2 ⟨t.val * 5000 + p.val, hr⟩ k)
    exact congrArg (V c main_v54) (funext fun a => Fin.ext (by
      match a with
      | ⟨0, _⟩ => show win2_0.index t (0 : Fin 2) * 5000 + 1 * p.val = t.val * 5000 + p.val; omega
      | ⟨1, _⟩ => show win2_0.index t (1 : Fin 2) * 128 + 1 * k.val = k.val; omega))
  · intro k
    show V c main_v41 (((cfg2.win 1).blk t).view.emb (ix2 p k)) = V c main_v41 (ix2 ⟨t.val * 5000 + p.val, hr⟩ k)
    exact congrArg (V c main_v41) (funext fun a => Fin.ext (by
      match a with
      | ⟨0, _⟩ => show win2_1.index t (0 : Fin 2) * 5000 + 1 * p.val = t.val * 5000 + p.val; omega
      | ⟨1, _⟩ => show win2_1.index t (1 : Fin 2) * 128 + 1 * k.val = k.val; omega))
  · funext y
    show V c main_arg8 (((cfg2.win 2).blk t).view.emb y) = V c main_arg8 y
    exact congrArg (V c main_arg8) (funext fun a => Fin.ext (by
      match a with
      | ⟨0, _⟩ => show win2_2.index t (0 : Fin 2) * 128 + 1 * (y 0).val = (y 0).val; omega
      | ⟨1, _⟩ => show win2_2.index t (1 : Fin 2) * 64 + 1 * (y 1).val = (y 1).val; omega))
  · funext y
    show V c main_arg10 (((cfg2.win 4).blk t).view.emb y) = V c main_arg10 y
    exact congrArg (V c main_arg10) (funext fun a => Fin.ext (by
      match a with
      | ⟨0, _⟩ => show win2_4.index t (0 : Fin 2) * 128 + 1 * (y 0).val = (y 0).val; omega
      | ⟨1, _⟩ => show win2_4.index t (1 : Fin 2) * 64 + 1 * (y 1).val = (y 1).val; omega))
  · funext y
    show V c main_v55 (((cfg2.win 3).blk t).view.emb y) = V c main_v55 y
    exact congrArg (V c main_v55) (funext fun a => Fin.ext (by
      match a with
      | ⟨0, _⟩ => show win2_3.index t (0 : Fin 2) * 1 + 1 * (y 0).val = (y 0).val; omega
      | ⟨1, _⟩ => show win2_3.index t (1 : Fin 2) * 64 + 1 * (y 1).val = (y 1).val; omega))
  · show G V c (ix2 ⟨t.val * 5000 + p.val, hr⟩ q) = G V c (((cfg2.win 5).blk t).view.emb (ix2 p q))
    exact congrArg (G V c) (funext fun a => Fin.ext (by
      match a with
      | ⟨0, _⟩ => show t.val * 5000 + p.val = win2_5.index t (0 : Fin 2) * 5000 + 1 * p.val; omega
      | ⟨1, _⟩ => show q.val = win2_5.index t (1 : Fin 2) * 64 + 1 * q.val; omega))

/-- An index of the output array is in point `t`'s block iff each coordinate is in the block's range on its axis. -/
theorem mem_blk (t : Fin cfg2.N) (i : S50000x64.Idx) :
    i ∈ ((cfg2.win 5).blk t).view.set ↔ ∀ a : Fin 2, win2_5.index t a * S5000x64.size a ≤ (i a).val ∧ (i a).val < win2_5.index t a * S5000x64.size a + S5000x64.size a := by
  show i ∈ ((View.whole main_v56).slice (win2_5.rect t)).set ↔ _
  rw [View.set_slice_whole, Rect.mem_set_unit]
  exact Iff.rfl

/-- Every row lies in the block of the point `row / 5000`. -/
theorem cover (i : S50000x64.Idx) :
    ∃ t : Fin cfg2.N, (cfg2.win 5).flush t = true ∧ i ∈ ((cfg2.win 5).blk t).view.set := by
  have hi0 : (i 0).val < 50000 := (i 0).isLt
  have hi1 : (i 1).val < 64 := (i 1).isLt
  have hN : (i 0).val / 5000 < cfg2.N := lt_of_lt_of_eq (by omega : (i 0).val / 5000 < 10) N_2.symm
  refine ⟨⟨(i 0).val / 5000, hN⟩, flush2_5 _, ?_⟩
  obtain ⟨-, -, -, -, -, -, -, -, -, -, e50, e51⟩ := idx_facts ⟨(i 0).val / 5000, hN⟩
  rw [mem_blk]
  intro a
  match a with
  | ⟨0, _⟩ =>
    show win2_5.index ⟨(i 0).val / 5000, hN⟩ (0 : Fin 2) * 5000 ≤ (i 0).val ∧ (i 0).val < win2_5.index ⟨(i 0).val / 5000, hN⟩ (0 : Fin 2) * 5000 + 5000
    rw [e50]; show (i 0).val / 5000 * 5000 ≤ (i 0).val ∧ (i 0).val < (i 0).val / 5000 * 5000 + 5000; omega
  | ⟨1, _⟩ =>
    show win2_5.index ⟨(i 0).val / 5000, hN⟩ (1 : Fin 2) * 64 ≤ (i 1).val ∧ (i 1).val < win2_5.index ⟨(i 0).val / 5000, hN⟩ (1 : Fin 2) * 64 + 64
    rw [e51]; omega

/-- The output array after the call is the layer of the arrays the call finds. -/
theorem arr (c : Dev nD) : (dat2 V c).arrAt 5 cfg2.N = G V c :=
  (dat2 V c).arrAt_eq_of_cover 5 (G V c) (fun t _ => flushed_eq V c t) cover

end Cert.KernelIdeal.Layer2

end
-- ==== Proof.KernelValue3.lean ====
/-
  The buffer contents at the third call's entry and exit: the kernel program's result as a function of the launched
  arguments.

  Between the second and the third call the host operations take the neighbour means of the second layer's result and
  lay the third bias out as one row. The third call leaves its output array — the program's result — at the layer,
  not clamped, of the arrays it found: the reference's last-layer function applied to the second layer's result, which is
  the reference's result of the launched arguments.
-/
import proofs.«102059_j10797547782307_1_alg».proof.Proof.KernelValue2
import proofs.«102059_j10797547782307_1_alg».proof.Proof.KernelRegion2

set_option maxRecDepth 16384

noncomputable section

namespace Cert.KernelIdeal.Value3

open Cert.KernelIdeal Cert.KernelIdeal.Gen Cert.KernelIdeal.HostVal
open Cert.KernelIdeal.Value1 Cert.KernelIdeal.Value2
open Idealize.ShloMosaic Idealize.ShloMosaic.TcCoe Idealize.SL.Sem Idealize.ShloMosaic.StableHlo
open Idealize.ShloMosaic.ValueIdx Cert.Sage Cert.SageNet
open Cert.ReferenceIdeal.Read (val_main_v22 val_main_v29 val_main_v55 val_main_v80)

variable (m : (ℓ : Loc nD τ sig) → Buf (Elt Ideal) ℓ) (ρ : Dev nD → PrngReg) (c : Dev nD)

/-- The second layer's result, as the reference spells it. -/
abbrev H2 : F32 S50000x128 :=
  val_main_v55 (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))

/-! ## At the third call's entry -/

theorem w5_v54 : W5 m ρ c (Proc.devRef .tc main_v54)
    = aggOf (srcOf (m ((c : Thread nD τ).loc main_arg1))) (dstOf (m ((c : Thread nD τ).loc main_arg1)))
        (invOf (dstOf (m ((c : Thread nD τ).loc main_arg1)))) (H2 m c) := by
  show StableHlo.after hostOps2 (W4 m ρ c) (Proc.devRef .tc main_v54) = _
  dsimp only [hostOps2]; after_results_simp
  rw [w4_v1, w4_v3, w4_v11, w4_v41]
  rfl

theorem w5_v55 : W5 m ρ c (Proc.devRef .tc main_v55)
    = (shapeCast S1x64 (m ((c : Thread nD τ).loc main_arg9)) Facts₀.shapeCasts_S64_S1x64 : F32 S1x64) := by
  show StableHlo.after hostOps2 (W4 m ρ c) (Proc.devRef .tc main_v55) = _
  dsimp only [hostOps2]; after_results_simp
  rw [w4_arg9]
  rfl

theorem w5_v41 : W5 m ρ c (Proc.devRef .tc main_v41) = H2 m c :=
  (show StableHlo.after hostOps2 (W4 m ρ c) (Proc.devRef .tc main_v41) = W4 m ρ c (Proc.devRef .tc main_v41) by
    host_keeps hostOps2 main_v41).trans (w4_v41 m ρ c)
theorem w5_arg8 : W5 m ρ c (Proc.devRef .tc main_arg8) = m ((c : Thread nD τ).loc main_arg8) :=
  (show StableHlo.after hostOps2 (W4 m ρ c) (Proc.devRef .tc main_arg8) = W4 m ρ c (Proc.devRef .tc main_arg8) by
    host_keeps hostOps2 main_arg8).trans (w4_arg8 m ρ c)
theorem w5_arg10 : W5 m ρ c (Proc.devRef .tc main_arg10) = m ((c : Thread nD τ).loc main_arg10) :=
  (show StableHlo.after hostOps2 (W4 m ρ c) (Proc.devRef .tc main_arg10) = W4 m ρ c (Proc.devRef .tc main_arg10) by
    host_keeps hostOps2 main_arg10).trans (w4_arg10 m ρ c)

/-! ## At the third call's exit -/

/-- The kernel program's result is the reference's result of the launched arguments. -/
theorem w6_v56 : W6 m ρ c (Proc.devRef .tc main_v56)
    = val_main_v80 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7))
        (m ((c : Thread nD τ).loc main_arg8)) (m ((c : Thread nD τ).loc main_arg9)) (m ((c : Thread nD τ).loc main_arg10)) := by
  refine (W6_arr m ρ c 5).trans ((Cert.KernelIdeal.Layer2.arr (V5 m ρ) c).trans ?_)
  show lin (W5 m ρ c (Proc.devRef .tc main_v54)) (W5 m ρ c (Proc.devRef .tc main_v41)) (W5 m ρ c (Proc.devRef .tc main_arg8))
    (W5 m ρ c (Proc.devRef .tc main_arg10)) (fun q => W5 m ρ c (Proc.devRef .tc main_v55) (ix2 (0 : Fin 1) q)) = _
  rw [w5_v54, w5_v41, w5_arg8, w5_arg10, w5_v55]
  exact (layer_last _ _ _ _ _).trans (third_layer _ _ _ _ _ _ _ _ _ _ _).symm

end Cert.KernelIdeal.Value3

end
-- ==== Proof.lean ====
/-
  A three-layer SAGE network (mean aggregation; 50000 nodes, 800000 edges; widths 128 → 128 → 128 → 64): a Pallas kernel
  per layer against a plain jnp reference, equal on the extended reals.

  Each layer is `mean(x_j) · Wl + b + x · Wr`, clamped at zero in the first two. Both programs take the neighbour sums on
  the host by the same gather and scatter-add. They differ in three ways, none of which changes an extended real:
  * the mean — the kernel program multiplies the edge sums by `1 / max(deg, 1)`, the reference divides them by
    `max(deg, 1)`; the divisor is at least one, so the two agree whatever the edge sum (no finiteness is used);
  * the order of the three summands — `(a · Wl + x · Wr) + b` in the kernel, `(a · Wl + b) + x · Wr` in the reference;
    addition of extended reals is commutative and associative;
  * the tiling — the kernel computes ten blocks of 5000 rows, the operands rounded to bf16 on the way into the matrix
    products (the identity on the extended reals); an entry of a layer reads one row of its inputs, so the blocks are
    the blocks of the layer of the whole arrays.
  So the kernel program's result array is the reference's result function of the launched arguments
  (Proof/KernelValue3.lean, over the per-call modules Proof/KernelRegion0–2.lean and the layer arithmetic of
  Proof/Layer.lean and Proof/Bridge.lean), and the reference's run ends at the same function (its generated run and
  stage lemmas). The frames are the generated ones; the idealization rewrote nothing.
-/
import proofs.«102059_j10797547782307_1_alg».proof.Defs
import proofs.«102059_j10797547782307_1_alg».proof.Proof.Gen.Kernel
import proofs.«102059_j10797547782307_1_alg».proof.Proof.Gen.Kernel.Skeleton
import proofs.«102059_j10797547782307_1_alg».proof.Proof.Gen.Kernel.Launch
import proofs.«102059_j10797547782307_1_alg».proof.Proof.Gen.Kernel.Points
import proofs.«102059_j10797547782307_1_alg».proof.Proof.Gen.Kernel.Frame
import proofs.«102059_j10797547782307_1_alg».proof.Proof.Gen.KernelIdeal
import proofs.«102059_j10797547782307_1_alg».proof.Proof.Gen.KernelIdeal.Skeleton
import proofs.«102059_j10797547782307_1_alg».proof.Proof.Gen.KernelIdeal.Launch
import proofs.«102059_j10797547782307_1_alg».proof.Proof.Gen.KernelIdeal.Points
import proofs.«102059_j10797547782307_1_alg».proof.Proof.Gen.KernelIdeal.Frame
import proofs.«102059_j10797547782307_1_alg».proof.Proof.Gen.ReferenceIdeal
import proofs.«102059_j10797547782307_1_alg».proof.Proof.Gen.ReferenceIdeal.Run
import proofs.«102059_j10797547782307_1_alg».proof.Proof.Gen.ReferenceIdeal.Read
import proofs.«102059_j10797547782307_1_alg».proof.Proof.Gen.Pre_finite_inputs
import proofs.«102059_j10797547782307_1_alg».proof.Proof.KernelRun
import proofs.«102059_j10797547782307_1_alg».proof.Proof.KernelValue3
import Idealize.ShloMosaic.Adequacy
import Idealize.ShloMosaic.Init

noncomputable section

namespace Cert.Proof

open Idealize.ShloMosaic Idealize.SL.Sem

/-- The word-level kernel program runs and leaves its arguments as launched. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- The reference's run, its result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both idealized programs end with the reference's result function of the launched arguments. -/
theorem algebraic : Cert.algebraic_KernelIdeal_ReferenceIdeal := by
  intro m ρ m' ρ' _ hagree
  refine ⟨fun c => Cert.ReferenceIdeal.Read.val_main_v80 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10)), ?_, ?_⟩
  · exact (θ_run Cert.KernelIdeal.defs _ _).mono
      (fun r h c => ⟨(h c).1.trans (Cert.KernelIdeal.Value3.w6_v56 m ρ c), (h c).2⟩)
      (Cert.KernelIdeal.Named.run (F := Ideal) m ρ)
  · refine (θ_run Cert.ReferenceIdeal.defs _ _).mono (fun r h c => ⟨(h c).1.trans ?_, (h c).2⟩)
      (Cert.ReferenceIdeal.Value.run (F := Ideal) m' ρ')
    obtain ⟨a0, a1, a2, a3, a4, a5, a6, a7, a8, a9, a10⟩ := hagree c
    rw [Cert.ReferenceIdeal.Read.val_main_v80_eq, a0, a1, a2, a3, a4, a5, a6, a7, a8, a9, a10]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
